-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S4x64x64 : Shape := ⟨3, ![4, 64, 64]⟩
abbrev S4x64 : Shape := ⟨2, ![4, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S50000x64 .f32) (main_arg1 : IVec S2x800000 32) (main_arg2 : FVec F S4x64x64 .f32) (main_arg3 : FVec F S4x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S4x64x64 .f32 := Host.absf main_arg2
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  main_v13
-- ==== Kernel.lean ====
abbrev S50000x64 : Shape := ⟨2, ![50000, 64]⟩
abbrev S2x800000 : Shape := ⟨2, ![2, 800000]⟩
abbrev S4x64x64 : Shape := ⟨3, ![4, 64, 64]⟩
abbrev S4x64 : Shape := ⟨2, ![4, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x50000x64 : Shape := ⟨3, ![1, 50000, 64]⟩
abbrev S4x50000x64 : Shape := ⟨3, ![4, 50000, 64]⟩
abbrev S4x2000x64 : Shape := ⟨3, ![4, 2000, 64]⟩
abbrev S2000x64 : Shape := ⟨2, ![2000, 64]⟩
abbrev S1x2000x64 : Shape := ⟨3, ![1, 2000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩

abbrev nBuf : Space → Nat
  | .hbm => 55
  | .vmem => 6
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S4x64x64, .f32⟩
  | .hbm, ⟨3, _⟩ => ⟨S4x64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S_, .f32⟩
  | .hbm, ⟨18, _⟩ => ⟨S50000x64, .f32⟩
  | .hbm, ⟨19, _⟩ => ⟨S800000x1, .i32⟩
  | .hbm, ⟨20, _⟩ => ⟨S50000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S_, .f32⟩
  | .hbm, ⟨31, _⟩ => ⟨S50000x64, .f32⟩
  | .hbm, ⟨32, _⟩ => ⟨S800000x1, .i32⟩
  | .hbm, ⟨33, _⟩ => ⟨S50000x64, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S50000x64, .f32⟩
  | .hbm, ⟨47, _⟩ => ⟨S1x50000x64, .f32⟩
  | .hbm, ⟨48, _⟩ => ⟨S1x50000x64, .f32⟩
  | .hbm, ⟨49, _⟩ => ⟨S1x50000x64, .f32⟩
  | .hbm, ⟨50, _⟩ => ⟨S1x50000x64, .f32⟩
  | .hbm, ⟨51, _⟩ => ⟨S4x50000x64, .f32⟩
  | .hbm, ⟨52, _⟩ => ⟨S4x50000x64, .bf16⟩
  | .hbm, ⟨53, _⟩ => ⟨S4x64x64, .bf16⟩
  | .hbm, ⟨54, _⟩ => ⟨S50000x64, .f32⟩
  | .local _ .vmem, ⟨0, _⟩ => ⟨S4x2000x64, .bf16⟩
  | .local _ .vmem, ⟨1, _⟩ => ⟨S4x2000x64, .bf16⟩
  | .local _ .vmem, ⟨2, _⟩ => ⟨S4x64x64, .bf16⟩
  | .local _ .vmem, ⟨3, _⟩ => ⟨S4x64, .f32⟩
  | .local _ .vmem, ⟨4, _⟩ => ⟨S2000x64, .f32⟩
  | .local _ .vmem, ⟨5, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x2000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000x64_S1x50000x64_1_2 : S50000x64.BroadcastsInDim S1x50000x64 (![1, 2] : Fin 2 → Fin S1x50000x64.rank)
  concatenates_S1x50000x64_S1x50000x64_S1x50000x64_S1x50000x64_S4x50000x64_d0 : Shape.Concatenates [S1x50000x64, S1x50000x64, S1x50000x64, S1x50000x64] S4x50000x64 0
  bitsLt_bf16_f32 : FTy.bits .bf16 < FTy.bits .f32
  inb_S4x2000x64_S1x2000x64_0_0_0 : ∀ a, (![0, 0, 0] : Fin 3 → Nat) a + S1x2000x64.size a ≤ S4x2000x64.size a
  h_S1x2000x64 : 0 < S1x2000x64.numel
  shapeCasts_S1x2000x64_S2000x64 : S1x2000x64.ShapeCasts S2000x64
  inb_S4x64x64_S1x64x64_0_0_0 : ∀ a, (![0, 0, 0] : Fin 3 → Nat) a + S1x64x64.size a ≤ S4x64x64.size a
  h_S1x64x64 : 0 < S1x64x64.numel
  shapeCasts_S1x64x64_S64x64 : S1x64x64.ShapeCasts S64x64
  inb_S4x64_S1x64_0_0 : ∀ a, (![0, 0] : Fin 2 → Nat) a + S1x64.size a ≤ S4x64.size a
  h_S1x64 : 0 < S1x64.numel
  shapeCasts_S1x64_S64 : S1x64.ShapeCasts S64
  transposes_S64x64_p1_0_S64x64 : S64x64.Transposes [1, 0] S64x64
  shapeCasts_S64_S1x64 : S64.ShapeCasts S1x64
  shapeCasts_S1x64_S1x64 : S1x64.ShapeCasts S1x64
  broadcasts_S1x64_S2000x64 : S1x64.Broadcasts S2000x64
  inb_S4x2000x64_S1x2000x64_1_0_0 : ∀ a, (![1, 0, 0] : Fin 3 → Nat) a + S1x2000x64.size a ≤ S4x2000x64.size a
  inb_S4x64x64_S1x64x64_1_0_0 : ∀ a, (![1, 0, 0] : Fin 3 → Nat) a + S1x64x64.size a ≤ S4x64x64.size a
  inb_S4x64_S1x64_1_0 : ∀ a, (![1, 0] : Fin 2 → Nat) a + S1x64.size a ≤ S4x64.size a
  inb_S4x2000x64_S1x2000x64_2_0_0 : ∀ a, (![2, 0, 0] : Fin 3 → Nat) a + S1x2000x64.size a ≤ S4x2000x64.size a
  inb_S4x64x64_S1x64x64_2_0_0 : ∀ a, (![2, 0, 0] : Fin 3 → Nat) a + S1x64x64.size a ≤ S4x64x64.size a
  inb_S4x64_S1x64_2_0 : ∀ a, (![2, 0] : Fin 2 → Nat) a + S1x64.size a ≤ S4x64.size a
  inb_S4x2000x64_S1x2000x64_3_0_0 : ∀ a, (![3, 0, 0] : Fin 3 → Nat) a + S1x2000x64.size a ≤ S4x2000x64.size a
  inb_S4x64x64_S1x64x64_3_0_0 : ∀ a, (![3, 0, 0] : Fin 3 → Nat) a + S1x64x64.size a ≤ S4x64x64.size a
  inb_S4x64_S1x64_3_0 : ∀ a, (![3, 0] : Fin 2 → Nat) a + S1x64.size a ≤ S4x64.size a
  inb_S2000x64_S2000x64_0_0 : ∀ a, (![0, 0] : Fin 2 → Nat) a + S2000x64.size a ≤ S2000x64.size a
  h_S2000x64 : 0 < S2000x64.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2000x64.size a ≤ S4x50000x64.size a
  hwx0_0 : ∀ i : grid0.Coords, EltTy.bits .bf16 = 32 ∨ (Rect.block (s := S4x50000x64) S4x2000x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64x64.size a ≤ S4x64x64.size a
  hwx0_1 : ∀ i : grid0.Coords, EltTy.bits .bf16 = 32 ∨ (Rect.block (s := S4x64x64) S4x64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v39) S4x2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S4x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S4x64x64 : Shape := ⟨3, ![4, 64, 64]⟩
abbrev S4x64 : Shape := ⟨2, ![4, 64]⟩
abbrev S1x800000 : Shape := ⟨2, ![1, 800000]⟩
abbrev S800000 : Shape := ⟨1, ![800000]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S_ : Shape := ⟨0, ![]⟩
abbrev S800000x1 : Shape := ⟨2, ![800000, 1]⟩
abbrev S800000x64 : Shape := ⟨2, ![800000, 64]⟩

abbrev nBuf : Space → Nat
  | .hbm => 86
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S4x64x64, .f32⟩
  | .hbm, ⟨3, _⟩ => ⟨S4x64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S1x64x64, .f32⟩
  | .hbm, ⟨9, _⟩ => ⟨S64x64, .f32⟩
  | .hbm, ⟨10, _⟩ => ⟨S64x64, .f32⟩
  | .hbm, ⟨11, _⟩ => ⟨S50000x64, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S50000x64, .f32⟩
  | .hbm, ⟨16, _⟩ => ⟨S50000x64, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S_, .f32⟩
  | .hbm, ⟨27, _⟩ => ⟨S50000x64, .f32⟩
  | .hbm, ⟨28, _⟩ => ⟨S800000x1, .i32⟩
  | .hbm, ⟨29, _⟩ => ⟨S50000x64, .f32⟩
  | .hbm, ⟨30, _⟩ => ⟨S1x64x64, .f32⟩
  | .hbm, ⟨31, _⟩ => ⟨S64x64, .f32⟩
  | .hbm, ⟨32, _⟩ => ⟨S64x64, .f32⟩
  | .hbm, ⟨33, _⟩ => ⟨S50000x64, .f32⟩
  | .hbm, ⟨34, _⟩ => ⟨S50000x64, .f32⟩
  | .hbm, ⟨35, _⟩ => ⟨S1x64, .f32⟩
  | .hbm, ⟨36, _⟩ => ⟨S64, .f32⟩
  | .hbm, ⟨37, _⟩ => ⟨S1x64, .f32⟩
  | .hbm, ⟨38, _⟩ => ⟨S50000x64, .f32⟩
  | .hbm, ⟨39, _⟩ => ⟨S50000x64, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x64, .f32⟩
  | .hbm, ⟨49, _⟩ => ⟨S_, .f32⟩
  | .hbm, ⟨50, _⟩ => ⟨S50000x64, .f32⟩
  | .hbm, ⟨51, _⟩ => ⟨S800000x1, .i32⟩
  | .hbm, ⟨52, _⟩ => ⟨S50000x64, .f32⟩
  | .hbm, ⟨53, _⟩ => ⟨S1x64x64, .f32⟩
  | .hbm, ⟨54, _⟩ => ⟨S64x64, .f32⟩
  | .hbm, ⟨55, _⟩ => ⟨S64x64, .f32⟩
  | .hbm, ⟨56, _⟩ => ⟨S50000x64, .f32⟩
  | .hbm, ⟨57, _⟩ => ⟨S50000x64, .f32⟩
  | .hbm, ⟨58, _⟩ => ⟨S1x64, .f32⟩
  | .hbm, ⟨59, _⟩ => ⟨S64, .f32⟩
  | .hbm, ⟨60, _⟩ => ⟨S1x64, .f32⟩
  | .hbm, ⟨61, _⟩ => ⟨S50000x64, .f32⟩
  | .hbm, ⟨62, _⟩ => ⟨S50000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | .hbm, ⟨76, _⟩ => ⟨S1x64x64, .f32⟩
  | .hbm, ⟨77, _⟩ => ⟨S64x64, .f32⟩
  | .hbm, ⟨78, _⟩ => ⟨S64x64, .f32⟩
  | .hbm, ⟨79, _⟩ => ⟨S50000x64, .f32⟩
  | .hbm, ⟨80, _⟩ => ⟨S50000x64, .f32⟩
  | .hbm, ⟨81, _⟩ => ⟨S1x64, .f32⟩
  | .hbm, ⟨82, _⟩ => ⟨S64, .f32⟩
  | .hbm, ⟨83, _⟩ => ⟨S1x64, .f32⟩
  | .hbm, ⟨84, _⟩ => ⟨S50000x64, .f32⟩
  | .hbm, ⟨85, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_1 : Ref sig .tc := ⟨.hbm, 40, rfl⟩
abbrev main_v33 : Ref sig .tc := ⟨.hbm, 41, rfl⟩
abbrev main_v34 : Ref sig .tc := ⟨.hbm, 42, rfl⟩
abbrev main_c_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_c_4 : Ref sig .tc := ⟨.hbm, 63, rfl⟩
abbrev main_v53 : Ref sig .tc := ⟨.hbm, 64, rfl⟩
abbrev main_v54 : Ref sig .tc := ⟨.hbm, 65, rfl⟩
abbrev main_c_5 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_6 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S4x64x64_S1x64x64_0_0_0 : S4x64x64.Slices ![0, 0, 0] S1x64x64
  shapeCasts_S1x64x64_S64x64 : S1x64x64.ShapeCasts S64x64
  transposes_S64x64_S64x64_1_0 : S64x64.Transposes [1, 0] S64x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.FrameBits.lean ====
/-
  The frame of the blocked filter program: every weakly fair execution of @main terminates without a fault and
  leaves the four argument arrays as launched.

  @main is fifty host operations — the three graph shifts (a gather at the wrapped source nodes, a scatter-add at the
  target nodes into zeros), the four taps stacked along a new leading axis, two changes of float format — and then one
  region over a grid of 25 points. Point t stages rows 2000·t … 2000·t + 1999 of the stacked taps (window 0), the whole
  weight tensor and the whole bias table (windows 1 and 2, fetched once) and writes rows 2000·t … of the result
  (window 3). The body loads the four taps' row blocks, the four weight matrices and the four bias rows through
  literal rectangles and stores ONE value over the whole output block, so after the body the output buffer is that
  value, whatever it held before (the body also loads the output buffer once and drops what it read).

  No host operation writes an argument array, the region stages three arrays that are no argument (the stacked taps,
  the converted weights, the result) and the bias argument, which it only reads: so the arguments end unchanged.
-/
import proofs.«166097_j37812892074317_1_alg».proof.Proof.Gen.Kernel.Launch
import proofs.«166097_j37812892074317_1_alg».proof.Proof.Gen.Kernel.Skeleton
import proofs.«166097_j37812892074317_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the fifty host operations. -/
abbrev V (c : Dev nD) (b : Ref sig .tc) : Buf (Elt F) ((c : Thread nD τ).loc b) :=
  StableHlo.after hostOps0 (fun b => m (c, b)) b

/-- No host operation allocates its result at arbitrary contents. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is the result of no host operation is found by the region as launched. -/
theorem V_of_not_written (c : Dev nD) (b : Ref sig .tc)
    (h : ∀ op ∈ (hostOps0 : List (HloOp τ sig (Elt F))), Proc.devRef .tc b ∉ op.writes) :
    V m c b = m ((c : Thread nD τ).loc b) :=
  StableHlo.after_of_forall_not_mem (b := Proc.devRef .tc b) _ _ h

/-- No host operation writes argument 0. -/
theorem V_main_arg0 (c : Dev nD) : V m c main_arg0 = m ((c : Thread nD τ).loc main_arg0) :=
  V_of_not_written m c main_arg0 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  V_of_not_written m c main_arg1 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  V_of_not_written m c main_arg2 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  V_of_not_written m c main_arg3 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is
    not fetched the block index has not moved), for any proof data over these arrays whose body leaves the block. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is
    not fetched the block index has not moved), for any proof data over these arrays whose body leaves the block. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is
    not fetched the block index has not moved), for any proof data over these arrays whose body leaves the block. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every staged array at what the proof data computes and every other unscoped buffer as
    the region found it: arguments 0, 1, 2 are staged by no window, argument 3 is an input window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats 0 c).arrAt_in 2 rfl _).trans ((hA c 2).trans (V_main_arg3 m c)))⟩) h

/-! ## The body's accesses -/

/-- Tap 0's rows of the staged block, its weight matrix and its bias row. -/
abbrev rX0 : Rect S4x2000x64 := Rect.unit (s := S4x2000x64) ![0, 0, 0] S1x2000x64.size inb_S4x2000x64_S1x2000x64_0_0_0
abbrev rW0 : Rect S4x64x64 := Rect.unit (s := S4x64x64) ![0, 0, 0] S1x64x64.size inb_S4x64x64_S1x64x64_0_0_0
abbrev rB0 : Rect S4x64 := Rect.unit (s := S4x64) ![0, 0] S1x64.size inb_S4x64_S1x64_0_0
/-- Tap 1's rows of the staged block, its weight matrix and its bias row. -/
abbrev rX1 : Rect S4x2000x64 := Rect.unit (s := S4x2000x64) ![1, 0, 0] S1x2000x64.size inb_S4x2000x64_S1x2000x64_1_0_0
abbrev rW1 : Rect S4x64x64 := Rect.unit (s := S4x64x64) ![1, 0, 0] S1x64x64.size inb_S4x64x64_S1x64x64_1_0_0
abbrev rB1 : Rect S4x64 := Rect.unit (s := S4x64) ![1, 0] S1x64.size inb_S4x64_S1x64_1_0
/-- Tap 2's rows of the staged block, its weight matrix and its bias row. -/
abbrev rX2 : Rect S4x2000x64 := Rect.unit (s := S4x2000x64) ![2, 0, 0] S1x2000x64.size inb_S4x2000x64_S1x2000x64_2_0_0
abbrev rW2 : Rect S4x64x64 := Rect.unit (s := S4x64x64) ![2, 0, 0] S1x64x64.size inb_S4x64x64_S1x64x64_2_0_0
abbrev rB2 : Rect S4x64 := Rect.unit (s := S4x64) ![2, 0] S1x64.size inb_S4x64_S1x64_2_0
/-- Tap 3's rows of the staged block, its weight matrix and its bias row. -/
abbrev rX3 : Rect S4x2000x64 := Rect.unit (s := S4x2000x64) ![3, 0, 0] S1x2000x64.size inb_S4x2000x64_S1x2000x64_3_0_0
abbrev rW3 : Rect S4x64x64 := Rect.unit (s := S4x64x64) ![3, 0, 0] S1x64x64.size inb_S4x64x64_S1x64x64_3_0_0
abbrev rB3 : Rect S4x64 := Rect.unit (s := S4x64) ![3, 0] S1x64.size inb_S4x64_S1x64_3_0
/-- The whole output block. -/
abbrev rO : Rect S2000x64 := Rect.unit (s := S2000x64) ![0, 0] S2000x64.size inb_S2000x64_S2000x64_0_0

/-! ## What the body leaves in the output window's buffer -/

/-- The body's one stored value, from the three input blocks: taps 0 and 1 accumulated first, then taps 2 and 3. -/
def stored (x0 : Vec F S4x2000x64 .bf16) (x1 : Vec F S4x64x64 .bf16) (x2 : Vec F S4x64 .f32) : Vec F S2000x64 .f32 :=
  k0_pay1 (k0_pay2 (View.ld x0 rX0) (View.ld x1 rW0) (View.ld x2 rB0) (View.ld x0 rX1) (View.ld x1 rW1) (View.ld x2 rB1))
    (k0_pay3 (View.ld x0 rX2)) (k0_pay4 (View.ld x1 rW2)) (View.ld x2 rB2) (View.ld x0 rX3) (View.ld x1 rW3) (View.ld x2 rB3)

/-- The output buffer after the body: its one store read back. -/
def out3 (x0 : Vec F S4x2000x64 .bf16) (x1 : Vec F S4x64x64 .bf16) (x2 : Vec F S4x64 .f32) : Vec F S2000x64 .f32 :=
  View.canon [⟨rO, stored x0 x1 x2⟩]

/-- The one store covers the buffer. -/
theorem cover3 (p0 : Vec F S2000x64 .f32) (y : S2000x64.Idx) :
    ∃ pc ∈ ([⟨rO, p0⟩] : List (View.Piece (Elt F) S2000x64 .f32)), y ∈ pc.1.set :=
  View.cover_of_tiled [⟨rO, p0⟩] S2000x64.size (by rfl) y

/-! ## The body's triple -/

set_option maxHeartbeats 1000000 in
/-- The body on whole staging buffers, the inputs' at contents `x0 x1 x2` and the output's at anything, runs to the
    continuation with the inputs' as they were and the output's at `out3 x0 x1 x2`. -/
theorem sound_kernel (c : Dev nD) (E : Set ℕ) (i : grid0.Coords)
    (arg1 : Memref sig .tc .vmem S4x2000x64 .bf16) (harg1 : arg1.IsWhole) (arg2 : Memref sig .tc .vmem S4x64x64 .bf16) (harg2 : arg2.IsWhole)
    (arg3 : Memref sig .tc .vmem S4x64 .f32) (harg3 : arg3.IsWhole) (arg4 : Memref sig .tc .vmem S2000x64 .f32) (harg4 : arg4.IsWhole)
    (x0 : Vec F S4x2000x64 .bf16) (x1 : Vec F S4x64x64 .bf16) (x2 : Vec F S4x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__linear_accum_kernel i arg1 harg1 arg2 harg2 arg3 harg3 arg4 harg4) K := by
  simp only [cc0__linear_accum_kernel_eq_skeleton]; unfold cc0__linear_accum_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover3 _)

/-! ## The pipeline's proof data -/

/-- On core `c`: the arrays as the region finds them; after the body at point `t` each input's buffer at its block
    and the output's at `out3` of the input blocks; the invariant the scoped rest and the generator register, which
    the body does not touch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

/-- The proof data's arrays are the region-entry contents (projected, never unfolded through the host operations). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = out3 (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every staged array at what the
    proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frm

end
-- ==== Proof.FrameIdeal.lean ====
/-
  The frame of the blocked filter program: every weakly fair execution of @main terminates without a fault and
  leaves the four argument arrays as launched.

  @main is fifty host operations — the three graph shifts (a gather at the wrapped source nodes, a scatter-add at the
  target nodes into zeros), the four taps stacked along a new leading axis, two changes of float format — and then one
  region over a grid of 25 points. Point t stages rows 2000·t … 2000·t + 1999 of the stacked taps (window 0), the whole
  weight tensor and the whole bias table (windows 1 and 2, fetched once) and writes rows 2000·t … of the result
  (window 3). The body loads the four taps' row blocks, the four weight matrices and the four bias rows through
  literal rectangles and stores ONE value over the whole output block, so after the body the output buffer is that
  value, whatever it held before (the body also loads the output buffer once and drops what it read).

  No host operation writes an argument array, the region stages three arrays that are no argument (the stacked taps,
  the converted weights, the result) and the bias argument, which it only reads: so the arguments end unchanged.
-/
import proofs.«166097_j37812892074317_1_alg».proof.Proof.Gen.KernelIdeal.Launch
import proofs.«166097_j37812892074317_1_alg».proof.Proof.Gen.KernelIdeal.Skeleton
import proofs.«166097_j37812892074317_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the fifty host operations. -/
abbrev V (c : Dev nD) (b : Ref sig .tc) : Buf (Elt F) ((c : Thread nD τ).loc b) :=
  StableHlo.after hostOps0 (fun b => m (c, b)) b

/-- No host operation allocates its result at arbitrary contents. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is the result of no host operation is found by the region as launched. -/
theorem V_of_not_written (c : Dev nD) (b : Ref sig .tc)
    (h : ∀ op ∈ (hostOps0 : List (HloOp τ sig (Elt F))), Proc.devRef .tc b ∉ op.writes) :
    V m c b = m ((c : Thread nD τ).loc b) :=
  StableHlo.after_of_forall_not_mem (b := Proc.devRef .tc b) _ _ h

/-- No host operation writes argument 0. -/
theorem V_main_arg0 (c : Dev nD) : V m c main_arg0 = m ((c : Thread nD τ).loc main_arg0) :=
  V_of_not_written m c main_arg0 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  V_of_not_written m c main_arg1 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  V_of_not_written m c main_arg2 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  V_of_not_written m c main_arg3 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is
    not fetched the block index has not moved), for any proof data over these arrays whose body leaves the block. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is
    not fetched the block index has not moved), for any proof data over these arrays whose body leaves the block. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is
    not fetched the block index has not moved), for any proof data over these arrays whose body leaves the block. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every staged array at what the proof data computes and every other unscoped buffer as
    the region found it: arguments 0, 1, 2 are staged by no window, argument 3 is an input window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats 0 c).arrAt_in 2 rfl _).trans ((hA c 2).trans (V_main_arg3 m c)))⟩) h

/-! ## The body's accesses -/

/-- Tap 0's rows of the staged block, its weight matrix and its bias row. -/
abbrev rX0 : Rect S4x2000x64 := Rect.unit (s := S4x2000x64) ![0, 0, 0] S1x2000x64.size inb_S4x2000x64_S1x2000x64_0_0_0
abbrev rW0 : Rect S4x64x64 := Rect.unit (s := S4x64x64) ![0, 0, 0] S1x64x64.size inb_S4x64x64_S1x64x64_0_0_0
abbrev rB0 : Rect S4x64 := Rect.unit (s := S4x64) ![0, 0] S1x64.size inb_S4x64_S1x64_0_0
/-- Tap 1's rows of the staged block, its weight matrix and its bias row. -/
abbrev rX1 : Rect S4x2000x64 := Rect.unit (s := S4x2000x64) ![1, 0, 0] S1x2000x64.size inb_S4x2000x64_S1x2000x64_1_0_0
abbrev rW1 : Rect S4x64x64 := Rect.unit (s := S4x64x64) ![1, 0, 0] S1x64x64.size inb_S4x64x64_S1x64x64_1_0_0
abbrev rB1 : Rect S4x64 := Rect.unit (s := S4x64) ![1, 0] S1x64.size inb_S4x64_S1x64_1_0
/-- Tap 2's rows of the staged block, its weight matrix and its bias row. -/
abbrev rX2 : Rect S4x2000x64 := Rect.unit (s := S4x2000x64) ![2, 0, 0] S1x2000x64.size inb_S4x2000x64_S1x2000x64_2_0_0
abbrev rW2 : Rect S4x64x64 := Rect.unit (s := S4x64x64) ![2, 0, 0] S1x64x64.size inb_S4x64x64_S1x64x64_2_0_0
abbrev rB2 : Rect S4x64 := Rect.unit (s := S4x64) ![2, 0] S1x64.size inb_S4x64_S1x64_2_0
/-- Tap 3's rows of the staged block, its weight matrix and its bias row. -/
abbrev rX3 : Rect S4x2000x64 := Rect.unit (s := S4x2000x64) ![3, 0, 0] S1x2000x64.size inb_S4x2000x64_S1x2000x64_3_0_0
abbrev rW3 : Rect S4x64x64 := Rect.unit (s := S4x64x64) ![3, 0, 0] S1x64x64.size inb_S4x64x64_S1x64x64_3_0_0
abbrev rB3 : Rect S4x64 := Rect.unit (s := S4x64) ![3, 0] S1x64.size inb_S4x64_S1x64_3_0
/-- The whole output block. -/
abbrev rO : Rect S2000x64 := Rect.unit (s := S2000x64) ![0, 0] S2000x64.size inb_S2000x64_S2000x64_0_0

/-! ## What the body leaves in the output window's buffer -/

/-- The body's one stored value, from the three input blocks: taps 0 and 1 accumulated first, then taps 2 and 3. -/
def stored (x0 : Vec F S4x2000x64 .bf16) (x1 : Vec F S4x64x64 .bf16) (x2 : Vec F S4x64 .f32) : Vec F S2000x64 .f32 :=
  k0_pay1 (k0_pay2 (View.ld x0 rX0) (View.ld x1 rW0) (View.ld x2 rB0) (View.ld x0 rX1) (View.ld x1 rW1) (View.ld x2 rB1))
    (k0_pay3 (View.ld x0 rX2)) (k0_pay4 (View.ld x1 rW2)) (View.ld x2 rB2) (View.ld x0 rX3) (View.ld x1 rW3) (View.ld x2 rB3)

/-- The output buffer after the body: its one store read back. -/
def out3 (x0 : Vec F S4x2000x64 .bf16) (x1 : Vec F S4x64x64 .bf16) (x2 : Vec F S4x64 .f32) : Vec F S2000x64 .f32 :=
  View.canon [⟨rO, stored x0 x1 x2⟩]

/-- The one store covers the buffer. -/
theorem cover3 (p0 : Vec F S2000x64 .f32) (y : S2000x64.Idx) :
    ∃ pc ∈ ([⟨rO, p0⟩] : List (View.Piece (Elt F) S2000x64 .f32)), y ∈ pc.1.set :=
  View.cover_of_tiled [⟨rO, p0⟩] S2000x64.size (by rfl) y

/-! ## The body's triple -/

set_option maxHeartbeats 1000000 in
/-- The body on whole staging buffers, the inputs' at contents `x0 x1 x2` and the output's at anything, runs to the
    continuation with the inputs' as they were and the output's at `out3 x0 x1 x2`. -/
theorem sound_kernel (c : Dev nD) (E : Set ℕ) (i : grid0.Coords)
    (arg1 : Memref sig .tc .vmem S4x2000x64 .bf16) (harg1 : arg1.IsWhole) (arg2 : Memref sig .tc .vmem S4x64x64 .bf16) (harg2 : arg2.IsWhole)
    (arg3 : Memref sig .tc .vmem S4x64 .f32) (harg3 : arg3.IsWhole) (arg4 : Memref sig .tc .vmem S2000x64 .f32) (harg4 : arg4.IsWhole)
    (x0 : Vec F S4x2000x64 .bf16) (x1 : Vec F S4x64x64 .bf16) (x2 : Vec F S4x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__linear_accum_kernel i arg1 harg1 arg2 harg2 arg3 harg3 arg4 harg4) K := by
  simp only [cc0__linear_accum_kernel_eq_skeleton]; unfold cc0__linear_accum_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover3 _)

/-! ## The pipeline's proof data -/

/-- On core `c`: the arrays as the region finds them; after the body at point `t` each input's buffer at its block
    and the output's at `out3` of the input blocks; the invariant the scoped rest and the generator register, which
    the body does not touch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

/-- The proof data's arrays are the region-entry contents (projected, never unfolded through the host operations). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = out3 (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every staged array at what the
    proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frm

end
-- ==== Proof.Payload.lean ====
/-
  The value the body stores, read at one entry of the output block.

  With x0 the staged block of the stacked taps (4 × 2000 × 64: tap, row of the block, input channel), x1 the weights
  (4 × 64 × 64: tap, output channel, input channel) and x2 the biases (4 × 64), the body forms, for each tap k in order,
  the product of tap k's rows with the TRANSPOSE of tap k's weight matrix — entry (p, q) is Σ_d x0[k, p, d] · x1[k, q, d],
  the matrix unit started from zeros — adds it to the accumulator, then adds bias row k along every row. The accumulator
  starts as zeros. So entry (p, q) of what is stored is

      ((((((((0 + Σ_d x0[0,p,d]·x1[0,q,d]) + x2[0,q]) + Σ_d x0[1,p,d]·x1[1,q,d]) + x2[1,q]) + … ) + x2[3,q].

  The changes of shape on the way (a leading unit axis dropped from each loaded slab; a bias row sent to a vector and
  back) move no entry.
-/
import proofs.«166097_j37812892074317_1_alg».proof.Proof.FrameIdeal
import Idealize.ShloMosaic.Lib.Pipeline.Value
import Idealize.ShloMosaic.Lib.ValueIdx
import Idealize.ShloMosaic.PureOps.Ideal.Laws

set_option maxRecDepth 16384

noncomputable section

namespace Cert.KernelIdeal.Pay

open Cert.KernelIdeal Cert.KernelIdeal.Gen Cert.KernelIdeal.Frm
open Idealize.ShloMosaic Idealize.ShloMosaic.ValueIdx

/-! ## The matrix product of one tap -/

theorem lhs_row (i : S2000x64.Idx) (u : dot_S2000x64_S64x64_S2000x64_1_0_0_1_n_n.contr.Idx) :
    (dot_S2000x64_S64x64_S2000x64_1_0_0_1_n_n.lhsIdx i u 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_contr (i : S2000x64.Idx) (u : dot_S2000x64_S64x64_S2000x64_1_0_0_1_n_n.contr.Idx) :
    (dot_S2000x64_S64x64_S2000x64_1_0_0_1_n_n.lhsIdx i u 1).val = (u ⟨0, by decide⟩).val :=
  dot_S2000x64_S64x64_S2000x64_1_0_0_1_n_n.lhsIdx_val_of_single rfl i u
theorem rhs_contr (i : S2000x64.Idx) (u : dot_S2000x64_S64x64_S2000x64_1_0_0_1_n_n.contr.Idx) :
    (dot_S2000x64_S64x64_S2000x64_1_0_0_1_n_n.rhsIdx i u 0).val = (u ⟨0, by decide⟩).val :=
  dot_S2000x64_S64x64_S2000x64_1_0_0_1_n_n.rhsIdx_val_of_single rfl i u
theorem rhs_col (i : S2000x64.Idx) (u : dot_S2000x64_S64x64_S2000x64_1_0_0_1_n_n.contr.Idx) :
    (dot_S2000x64_S64x64_S2000x64_1_0_0_1_n_n.rhsIdx i u 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- Rows `x` (2000 × 64) against the transpose of `w` (64 × 64), the accumulator zeros: entry (p, q) is the sum over the
    input channel d of x[p, d] · w[q, d]. -/
theorem tapProd_apply (x : FVec Ideal S2000x64 .bf16) (w : FVec Ideal S64x64 .bf16) (p : Fin 2000) (q : Fin 64) :
    matmul dot_S2000x64_S64x64_S2000x64_1_0_0_1_n_n none x (transpose S64x64 [1, 0] w transposes_S64x64_p1_0_S64x64)
        (constant (F := Ideal) S2000x64 .f32 0x00000000#32) (ix2 p q)
      = ∑ d : Fin 64, x (ix2 p d) * w (ix2 q d) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun d _ => ?_
  have hd := ValueIdx.contrEquiv1_symm_val dot_S2000x64_S64x64_S2000x64_1_0_0_1_n_n 64 rfl rfl d
  have el : dot_S2000x64_S64x64_S2000x64_1_0_0_1_n_n.lhsIdx (ix2 p q) ((ValueIdx.contrEquiv1 dot_S2000x64_S64x64_S2000x64_1_0_0_1_n_n 64 rfl rfl).symm d) = ix2 p d := funext fun a => Fin.ext (by
    match a with
    | ⟨0, _⟩ => exact lhs_row _ _
    | ⟨1, _⟩ => exact (lhs_contr _ _).trans hd)
  have er : dot_S2000x64_S64x64_S2000x64_1_0_0_1_n_n.rhsIdx (ix2 p q) ((ValueIdx.contrEquiv1 dot_S2000x64_S64x64_S2000x64_1_0_0_1_n_n 64 rfl rfl).symm d) = ix2 d q := funext fun a => Fin.ext (by
    match a with
    | ⟨0, _⟩ => exact (rhs_contr _ _).trans hd
    | ⟨1, _⟩ => exact rhs_col _ _)
  rw [el, er]
  exact congrArg (x (ix2 p d) * ·) (transpose_apply [1, 0] w transposes_S64x64_p1_0_S64x64 (ix2 d q) (ix2 q d) (fun b => match b with
    | ⟨0, _⟩ => rfl
    | ⟨1, _⟩ => rfl))

/-! ## One bias row along every row -/

/-- A bias row (1 × 64) sent to a vector, back to a row, and broadcast over 2000 rows: entry (p, q) is b[0, q]. -/
theorem biasRow_apply (b : Vec Ideal S1x64 .f32) (p : Fin 2000) (q : Fin 64) :
    broadcastTo S2000x64 (shapeCast S1x64 (shapeCast S1x64 (shapeCast S64 b shapeCasts_S1x64_S64) shapeCasts_S64_S1x64) shapeCasts_S1x64_S1x64)
        broadcasts_S1x64_S2000x64 (ix2 p q) = b (ix2 0 q) := by
  rw [shapeCast_self, shapeCast_shapeCast]
  exact broadcastTo_apply b broadcasts_S1x64_S2000x64 (ix2 p q) (ix2 0 q) (fun a => match a with
    | ⟨0, _⟩ => rfl
    | ⟨1, _⟩ => rfl)

/-! ## The loaded slabs -/

/-- A 1 × 2000 × 64 slab with its unit axis dropped, at (p, d). -/
theorem slabRows_apply (v : Vec Ideal S1x2000x64 .bf16) (p : Fin 2000) (d : Fin 64) :
    shapeCast S2000x64 v shapeCasts_S1x2000x64_S2000x64 (ix2 p d) = v (ix3 0 p d) := by
  refine (shapeCast_dropUnit_apply ![2000, 64] v shapeCasts_S1x2000x64_S2000x64 (ix2 p d)).trans (congrArg v ?_)
  funext a
  match a with
  | ⟨0, _⟩ => rfl
  | ⟨1, _⟩ => rfl
  | ⟨2, _⟩ => rfl

/-- A 1 × 64 × 64 slab with its unit axis dropped, at (q, d). -/
theorem slabWts_apply (v : Vec Ideal S1x64x64 .bf16) (q : Fin 64) (d : Fin 64) :
    shapeCast S64x64 v shapeCasts_S1x64x64_S64x64 (ix2 q d) = v (ix3 0 q d) := by
  refine (shapeCast_dropUnit_apply ![64, 64] v shapeCasts_S1x64x64_S64x64 (ix2 q d)).trans (congrArg v ?_)
  funext a
  match a with
  | ⟨0, _⟩ => rfl
  | ⟨1, _⟩ => rfl
  | ⟨2, _⟩ => rfl

/-- Tap 0's slabs, read through their rectangles: the block's entries at leading index 0. -/
theorem ldX0_apply (x0 : Vec Ideal S4x2000x64 .bf16) (p : Fin 2000) (d : Fin 64) : View.ld x0 rX0 (ix3 0 p d) = x0 (ix3 0 p d) := by
  refine congrArg x0 (funext fun a => Fin.ext ?_)
  match a with
  | ⟨0, _⟩ => show 0 + 1 * 0 = 0; rfl
  | ⟨1, _⟩ => show 0 + 1 * p.val = p.val; omega
  | ⟨2, _⟩ => show 0 + 1 * d.val = d.val; omega
theorem ldW0_apply (x1 : Vec Ideal S4x64x64 .bf16) (q : Fin 64) (d : Fin 64) : View.ld x1 rW0 (ix3 0 q d) = x1 (ix3 0 q d) := by
  refine congrArg x1 (funext fun a => Fin.ext ?_)
  match a with
  | ⟨0, _⟩ => show 0 + 1 * 0 = 0; rfl
  | ⟨1, _⟩ => show 0 + 1 * q.val = q.val; omega
  | ⟨2, _⟩ => show 0 + 1 * d.val = d.val; omega
theorem ldB0_apply (x2 : Vec Ideal S4x64 .f32) (q : Fin 64) : View.ld x2 rB0 (ix2 0 q) = x2 (ix2 0 q) := by
  refine congrArg x2 (funext fun a => Fin.ext ?_)
  match a with
  | ⟨0, _⟩ => show 0 + 1 * 0 = 0; rfl
  | ⟨1, _⟩ => show 0 + 1 * q.val = q.val; omega
/-- Tap 1's slabs, read through their rectangles: the block's entries at leading index 1. -/
theorem ldX1_apply (x0 : Vec Ideal S4x2000x64 .bf16) (p : Fin 2000) (d : Fin 64) : View.ld x0 rX1 (ix3 0 p d) = x0 (ix3 1 p d) := by
  refine congrArg x0 (funext fun a => Fin.ext ?_)
  match a with
  | ⟨0, _⟩ => show 1 + 1 * 0 = 1; rfl
  | ⟨1, _⟩ => show 0 + 1 * p.val = p.val; omega
  | ⟨2, _⟩ => show 0 + 1 * d.val = d.val; omega
theorem ldW1_apply (x1 : Vec Ideal S4x64x64 .bf16) (q : Fin 64) (d : Fin 64) : View.ld x1 rW1 (ix3 0 q d) = x1 (ix3 1 q d) := by
  refine congrArg x1 (funext fun a => Fin.ext ?_)
  match a with
  | ⟨0, _⟩ => show 1 + 1 * 0 = 1; rfl
  | ⟨1, _⟩ => show 0 + 1 * q.val = q.val; omega
  | ⟨2, _⟩ => show 0 + 1 * d.val = d.val; omega
theorem ldB1_apply (x2 : Vec Ideal S4x64 .f32) (q : Fin 64) : View.ld x2 rB1 (ix2 0 q) = x2 (ix2 1 q) := by
  refine congrArg x2 (funext fun a => Fin.ext ?_)
  match a with
  | ⟨0, _⟩ => show 1 + 1 * 0 = 1; rfl
  | ⟨1, _⟩ => show 0 + 1 * q.val = q.val; omega
/-- Tap 2's slabs, read through their rectangles: the block's entries at leading index 2. -/
theorem ldX2_apply (x0 : Vec Ideal S4x2000x64 .bf16) (p : Fin 2000) (d : Fin 64) : View.ld x0 rX2 (ix3 0 p d) = x0 (ix3 2 p d) := by
  refine congrArg x0 (funext fun a => Fin.ext ?_)
  match a with
  | ⟨0, _⟩ => show 2 + 1 * 0 = 2; rfl
  | ⟨1, _⟩ => show 0 + 1 * p.val = p.val; omega
  | ⟨2, _⟩ => show 0 + 1 * d.val = d.val; omega
theorem ldW2_apply (x1 : Vec Ideal S4x64x64 .bf16) (q : Fin 64) (d : Fin 64) : View.ld x1 rW2 (ix3 0 q d) = x1 (ix3 2 q d) := by
  refine congrArg x1 (funext fun a => Fin.ext ?_)
  match a with
  | ⟨0, _⟩ => show 2 + 1 * 0 = 2; rfl
  | ⟨1, _⟩ => show 0 + 1 * q.val = q.val; omega
  | ⟨2, _⟩ => show 0 + 1 * d.val = d.val; omega
theorem ldB2_apply (x2 : Vec Ideal S4x64 .f32) (q : Fin 64) : View.ld x2 rB2 (ix2 0 q) = x2 (ix2 2 q) := by
  refine congrArg x2 (funext fun a => Fin.ext ?_)
  match a with
  | ⟨0, _⟩ => show 2 + 1 * 0 = 2; rfl
  | ⟨1, _⟩ => show 0 + 1 * q.val = q.val; omega
/-- Tap 3's slabs, read through their rectangles: the block's entries at leading index 3. -/
theorem ldX3_apply (x0 : Vec Ideal S4x2000x64 .bf16) (p : Fin 2000) (d : Fin 64) : View.ld x0 rX3 (ix3 0 p d) = x0 (ix3 3 p d) := by
  refine congrArg x0 (funext fun a => Fin.ext ?_)
  match a with
  | ⟨0, _⟩ => show 3 + 1 * 0 = 3; rfl
  | ⟨1, _⟩ => show 0 + 1 * p.val = p.val; omega
  | ⟨2, _⟩ => show 0 + 1 * d.val = d.val; omega
theorem ldW3_apply (x1 : Vec Ideal S4x64x64 .bf16) (q : Fin 64) (d : Fin 64) : View.ld x1 rW3 (ix3 0 q d) = x1 (ix3 3 q d) := by
  refine congrArg x1 (funext fun a => Fin.ext ?_)
  match a with
  | ⟨0, _⟩ => show 3 + 1 * 0 = 3; rfl
  | ⟨1, _⟩ => show 0 + 1 * q.val = q.val; omega
  | ⟨2, _⟩ => show 0 + 1 * d.val = d.val; omega
theorem ldB3_apply (x2 : Vec Ideal S4x64 .f32) (q : Fin 64) : View.ld x2 rB3 (ix2 0 q) = x2 (ix2 3 q) := by
  refine congrArg x2 (funext fun a => Fin.ext ?_)
  match a with
  | ⟨0, _⟩ => show 3 + 1 * 0 = 3; rfl
  | ⟨1, _⟩ => show 0 + 1 * q.val = q.val; omega

/-! ## One tap's two terms at an entry -/

/-- Tap 0's product and bias terms at entry (p, q), over the staged blocks. -/
theorem tapTerm0 (x0 : Vec Ideal S4x2000x64 .bf16) (x1 : Vec Ideal S4x64x64 .bf16) (p : Fin 2000) (q : Fin 64) :
    matmul dot_S2000x64_S64x64_S2000x64_1_0_0_1_n_n none (shapeCast S2000x64 (View.ld x0 rX0) shapeCasts_S1x2000x64_S2000x64 : FVec Ideal S2000x64 .bf16)
        (transpose S64x64 [1, 0] (shapeCast S64x64 (View.ld x1 rW0) shapeCasts_S1x64x64_S64x64 : FVec Ideal S64x64 .bf16) transposes_S64x64_p1_0_S64x64)
        (constant (F := Ideal) S2000x64 .f32 0x00000000#32) (ix2 p q)
      = ∑ d : Fin 64, x0 (ix3 0 p d) * x1 (ix3 0 q d) := by
  rw [tapProd_apply]
  refine Finset.sum_congr rfl fun d _ => ?_
  rw [slabRows_apply, slabWts_apply, ldX0_apply, ldW0_apply]
theorem biasTerm0 (x2 : Vec Ideal S4x64 .f32) (p : Fin 2000) (q : Fin 64) :
    broadcastTo S2000x64 (shapeCast S1x64 (shapeCast S1x64 (shapeCast S64 (View.ld x2 rB0) shapeCasts_S1x64_S64) shapeCasts_S64_S1x64) shapeCasts_S1x64_S1x64)
        broadcasts_S1x64_S2000x64 (ix2 p q) = x2 (ix2 0 q) := by
  rw [biasRow_apply, ldB0_apply]
/-- Tap 1's product and bias terms at entry (p, q), over the staged blocks. -/
theorem tapTerm1 (x0 : Vec Ideal S4x2000x64 .bf16) (x1 : Vec Ideal S4x64x64 .bf16) (p : Fin 2000) (q : Fin 64) :
    matmul dot_S2000x64_S64x64_S2000x64_1_0_0_1_n_n none (shapeCast S2000x64 (View.ld x0 rX1) shapeCasts_S1x2000x64_S2000x64 : FVec Ideal S2000x64 .bf16)
        (transpose S64x64 [1, 0] (shapeCast S64x64 (View.ld x1 rW1) shapeCasts_S1x64x64_S64x64 : FVec Ideal S64x64 .bf16) transposes_S64x64_p1_0_S64x64)
        (constant (F := Ideal) S2000x64 .f32 0x00000000#32) (ix2 p q)
      = ∑ d : Fin 64, x0 (ix3 1 p d) * x1 (ix3 1 q d) := by
  rw [tapProd_apply]
  refine Finset.sum_congr rfl fun d _ => ?_
  rw [slabRows_apply, slabWts_apply, ldX1_apply, ldW1_apply]
theorem biasTerm1 (x2 : Vec Ideal S4x64 .f32) (p : Fin 2000) (q : Fin 64) :
    broadcastTo S2000x64 (shapeCast S1x64 (shapeCast S1x64 (shapeCast S64 (View.ld x2 rB1) shapeCasts_S1x64_S64) shapeCasts_S64_S1x64) shapeCasts_S1x64_S1x64)
        broadcasts_S1x64_S2000x64 (ix2 p q) = x2 (ix2 1 q) := by
  rw [biasRow_apply, ldB1_apply]
/-- Tap 2's product and bias terms at entry (p, q), over the staged blocks. -/
theorem tapTerm2 (x0 : Vec Ideal S4x2000x64 .bf16) (x1 : Vec Ideal S4x64x64 .bf16) (p : Fin 2000) (q : Fin 64) :
    matmul dot_S2000x64_S64x64_S2000x64_1_0_0_1_n_n none (shapeCast S2000x64 (View.ld x0 rX2) shapeCasts_S1x2000x64_S2000x64 : FVec Ideal S2000x64 .bf16)
        (transpose S64x64 [1, 0] (shapeCast S64x64 (View.ld x1 rW2) shapeCasts_S1x64x64_S64x64 : FVec Ideal S64x64 .bf16) transposes_S64x64_p1_0_S64x64)
        (constant (F := Ideal) S2000x64 .f32 0x00000000#32) (ix2 p q)
      = ∑ d : Fin 64, x0 (ix3 2 p d) * x1 (ix3 2 q d) := by
  rw [tapProd_apply]
  refine Finset.sum_congr rfl fun d _ => ?_
  rw [slabRows_apply, slabWts_apply, ldX2_apply, ldW2_apply]
theorem biasTerm2 (x2 : Vec Ideal S4x64 .f32) (p : Fin 2000) (q : Fin 64) :
    broadcastTo S2000x64 (shapeCast S1x64 (shapeCast S1x64 (shapeCast S64 (View.ld x2 rB2) shapeCasts_S1x64_S64) shapeCasts_S64_S1x64) shapeCasts_S1x64_S1x64)
        broadcasts_S1x64_S2000x64 (ix2 p q) = x2 (ix2 2 q) := by
  rw [biasRow_apply, ldB2_apply]
/-- Tap 3's product and bias terms at entry (p, q), over the staged blocks. -/
theorem tapTerm3 (x0 : Vec Ideal S4x2000x64 .bf16) (x1 : Vec Ideal S4x64x64 .bf16) (p : Fin 2000) (q : Fin 64) :
    matmul dot_S2000x64_S64x64_S2000x64_1_0_0_1_n_n none (shapeCast S2000x64 (View.ld x0 rX3) shapeCasts_S1x2000x64_S2000x64 : FVec Ideal S2000x64 .bf16)
        (transpose S64x64 [1, 0] (shapeCast S64x64 (View.ld x1 rW3) shapeCasts_S1x64x64_S64x64 : FVec Ideal S64x64 .bf16) transposes_S64x64_p1_0_S64x64)
        (constant (F := Ideal) S2000x64 .f32 0x00000000#32) (ix2 p q)
      = ∑ d : Fin 64, x0 (ix3 3 p d) * x1 (ix3 3 q d) := by
  rw [tapProd_apply]
  refine Finset.sum_congr rfl fun d _ => ?_
  rw [slabRows_apply, slabWts_apply, ldX3_apply, ldW3_apply]
theorem biasTerm3 (x2 : Vec Ideal S4x64 .f32) (p : Fin 2000) (q : Fin 64) :
    broadcastTo S2000x64 (shapeCast S1x64 (shapeCast S1x64 (shapeCast S64 (View.ld x2 rB3) shapeCasts_S1x64_S64) shapeCasts_S64_S1x64) shapeCasts_S1x64_S1x64)
        broadcasts_S1x64_S2000x64 (ix2 p q) = x2 (ix2 3 q) := by
  rw [biasRow_apply, ldB3_apply]

/-! ## The stored value at an entry -/

/-- The zero word is zero. -/
theorem zero_word : (FloatOps.ofBits (F := Ideal) FTy.f32 0x00000000#32 : EReal) = 0 := Ideal.ofBits_zero_f32

/-- Entry (p, q) of what the body stores: from zero, each tap's product then its bias, taps 0 to 3. -/
theorem stored_apply (x0 : Vec Ideal S4x2000x64 .bf16) (x1 : Vec Ideal S4x64x64 .bf16) (x2 : Vec Ideal S4x64 .f32) (p : Fin 2000) (q : Fin 64) :
    stored x0 x1 x2 (ix2 p q)
      = ((((((((0 : EReal) + ∑ d : Fin 64, x0 (ix3 0 p d) * x1 (ix3 0 q d)) + x2 (ix2 0 q))
            + ∑ d : Fin 64, x0 (ix3 1 p d) * x1 (ix3 1 q d)) + x2 (ix2 1 q))
          + ∑ d : Fin 64, x0 (ix3 2 p d) * x1 (ix3 2 q d)) + x2 (ix2 2 q))
        + ∑ d : Fin 64, x0 (ix3 3 p d) * x1 (ix3 3 q d)) + x2 (ix2 3 q) := by
  unfold stored k0_pay1 k0_pay2 k0_pay3 k0_pay4
  simp only [addf_apply, broadcast_apply]
  rw [tapTerm0, tapTerm1, tapTerm2, tapTerm3, biasTerm0, biasTerm1, biasTerm2, biasTerm3, zero_word]

end Cert.KernelIdeal.Pay

end
-- ==== Proof.Taps.lean ====
/-
  The graph shift and the stack of the four taps.

  One shift of the features x along the edges (source row, target row of the edge table e): every edge reads row src
  of x — a negative src wrapped by adding the number of nodes — and the rows read are summed at row dst, starting from
  zeros. Four feature arrays laid side by side along a new leading axis, their float format narrowed (which at exact
  values changes nothing), give an array whose entry (k, r, d) is entry (r, d) of the k-th of them.
-/
import proofs.«166097_j37812892074317_1_alg».proof.Proof.Gen.KernelIdeal
import Idealize.ShloMosaic.Lib.Pipeline.Value
import Idealize.ShloMosaic.Lib.ValueIdx

set_option maxRecDepth 16384

noncomputable section

namespace Cert.KernelIdeal.Taps

open Cert.KernelIdeal Cert.KernelIdeal.Gen
open Idealize.ShloMosaic Idealize.ShloMosaic.TcCoe Idealize.ShloMosaic.ValueIdx Idealize.SL.Sem

/-- One graph shift: the rows of `x` at the wrapped source nodes (row 0 of `e`), summed at the target nodes (row 1 of
    `e`) into zeros. -/
def shift (e : (⟨S2x800000, .i32⟩ : BufTy).Contents (Elt Ideal)) (x : FVec Ideal S50000x64 .f32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0
      (shapeCast _ (extractStridedSlice S1x800000 ![1, 0] e slices_S2x800000_S1x800000_1_0) shapeCasts_S1x800000_S800000))
    (Host.gather gather_S50000x64_S800000x1_S800000x64_1_0_n_n_0_1_164 x
      (broadcastInDim S800000x1 ![0] bcast_S800000_S800000x1_0
        (select
          (cmpi .slt
            (shapeCast _ (extractStridedSlice S1x800000 ![0, 0] e slices_S2x800000_S1x800000_0_0) shapeCasts_S1x800000_S800000)
            (broadcastInDim S800000 ![] bcast_S_S800000 (constantI S_ 32 0#32)))
          (addi
            (shapeCast _ (extractStridedSlice S1x800000 ![0, 0] e slices_S2x800000_S1x800000_0_0) shapeCasts_S1x800000_S800000)
            (broadcastInDim S800000 ![] bcast_S_S800000 (constantI S_ 32 50000#32)))
          (shapeCast _ (extractStridedSlice S1x800000 ![0, 0] e slices_S2x800000_S1x800000_0_0) shapeCasts_S1x800000_S800000))))

/-- A feature array with a leading unit axis. -/
def lead (x : FVec Ideal S50000x64 .f32) : FVec Ideal S1x50000x64 .f32 :=
  broadcastInDim S1x50000x64 ![1, 2] bcast_S50000x64_S1x50000x64_1_2 x

theorem lead_apply (x : FVec Ideal S50000x64 .f32) (r : Fin 50000) (d : Fin 64) : lead x (ix3 0 r d) = x (ix2 r d) :=
  broadcastInDim_apply ![1, 2] bcast_S50000x64_S1x50000x64_1_2 x (ix3 0 r d) (ix2 r d) (fun a => match a with
    | ⟨0, _⟩ => rfl
    | ⟨1, _⟩ => rfl)

/-- Four feature arrays side by side, in the narrow float format. -/
def stackOf (a0 a1 a2 a3 : FVec Ideal S50000x64 .f32) : FVec Ideal S4x50000x64 .bf16 :=
  truncf .bf16 (concatenate S4x50000x64 0 [⟨S1x50000x64, lead a0⟩, ⟨S1x50000x64, lead a1⟩, ⟨S1x50000x64, lead a2⟩, ⟨S1x50000x64, lead a3⟩]
    concatenates_S1x50000x64_S1x50000x64_S1x50000x64_S1x50000x64_S4x50000x64_d0) bitsLt_bf16_f32

/-- Entry (0, r, d) of the stack is entry (r, d) of the array at place 0. -/
theorem stackOf_apply0 (a0 a1 a2 a3 : FVec Ideal S50000x64 .f32) (r : Fin 50000) (d : Fin 64) :
    stackOf a0 a1 a2 a3 (ix3 0 r d) = a0 (ix2 r d) := by
  unfold stackOf
  rw [truncf_apply]
  refine (concatenate_apply_piece (0 : Fin S4x50000x64.rank) _ _ (ix3 0 r d) 0 (show _ < 4 by omega) S1x50000x64 (lead a0) rfl rfl 0 rfl
    (ix3 0 r d) (fun b hb => match b with
      | ⟨0, _⟩ => absurd rfl hb
      | ⟨1, _⟩ => rfl
      | ⟨2, _⟩ => rfl) rfl).trans ?_
  exact lead_apply a0 r d
/-- Entry (1, r, d) of the stack is entry (r, d) of the array at place 1. -/
theorem stackOf_apply1 (a0 a1 a2 a3 : FVec Ideal S50000x64 .f32) (r : Fin 50000) (d : Fin 64) :
    stackOf a0 a1 a2 a3 (ix3 1 r d) = a1 (ix2 r d) := by
  unfold stackOf
  rw [truncf_apply]
  refine (concatenate_apply_piece (0 : Fin S4x50000x64.rank) _ _ (ix3 1 r d) 1 (show _ < 4 by omega) S1x50000x64 (lead a1) rfl rfl 1 rfl
    (ix3 0 r d) (fun b hb => match b with
      | ⟨0, _⟩ => absurd rfl hb
      | ⟨1, _⟩ => rfl
      | ⟨2, _⟩ => rfl) rfl).trans ?_
  exact lead_apply a1 r d
/-- Entry (2, r, d) of the stack is entry (r, d) of the array at place 2. -/
theorem stackOf_apply2 (a0 a1 a2 a3 : FVec Ideal S50000x64 .f32) (r : Fin 50000) (d : Fin 64) :
    stackOf a0 a1 a2 a3 (ix3 2 r d) = a2 (ix2 r d) := by
  unfold stackOf
  rw [truncf_apply]
  refine (concatenate_apply_piece (0 : Fin S4x50000x64.rank) _ _ (ix3 2 r d) 2 (show _ < 4 by omega) S1x50000x64 (lead a2) rfl rfl 2 rfl
    (ix3 0 r d) (fun b hb => match b with
      | ⟨0, _⟩ => absurd rfl hb
      | ⟨1, _⟩ => rfl
      | ⟨2, _⟩ => rfl) rfl).trans ?_
  exact lead_apply a2 r d
/-- Entry (3, r, d) of the stack is entry (r, d) of the array at place 3. -/
theorem stackOf_apply3 (a0 a1 a2 a3 : FVec Ideal S50000x64 .f32) (r : Fin 50000) (d : Fin 64) :
    stackOf a0 a1 a2 a3 (ix3 3 r d) = a3 (ix2 r d) := by
  unfold stackOf
  rw [truncf_apply]
  refine (concatenate_apply_piece (0 : Fin S4x50000x64.rank) _ _ (ix3 3 r d) 3 (show _ < 4 by omega) S1x50000x64 (lead a3) rfl rfl 3 rfl
    (ix3 0 r d) (fun b hb => match b with
      | ⟨0, _⟩ => absurd rfl hb
      | ⟨1, _⟩ => rfl
      | ⟨2, _⟩ => rfl) rfl).trans ?_
  exact lead_apply a3 r d

/-- The features and their three shifts, stacked. -/
def stack (e : (⟨S2x800000, .i32⟩ : BufTy).Contents (Elt Ideal)) (x : FVec Ideal S50000x64 .f32) : FVec Ideal S4x50000x64 .bf16 :=
  stackOf x (shift e x) (shift e (shift e x)) (shift e (shift e (shift e x)))

end Cert.KernelIdeal.Taps

end
-- ==== Proof.Entry.lean ====
/-
  What the region finds in the two arrays @main computes for it: the four taps stacked, and the weights.

  @main's host operations fall into five stretches: the two rows of the edge table (source nodes, target nodes); the
  first, second and third graph shift, each reading the node rows and the tap before it; and the stacking of the four
  taps with the two changes of float format. Each stretch is read by itself, from any contents of the buffers before
  it: it writes its own results and leaves every other buffer. Chained, the stacked array is the features and their
  three shifts, and the staged weights are the weight argument.
-/
import proofs.«166097_j37812892074317_1_alg».proof.Proof.FrameIdeal
import proofs.«166097_j37812892074317_1_alg».proof.Proof.Taps
import Idealize.ShloMosaic.Lib.StableHlo.Run

set_option maxRecDepth 16384

noncomputable section

namespace Cert.KernelIdeal.Entry

open Cert.KernelIdeal Cert.KernelIdeal.Gen Cert.KernelIdeal.Frm Cert.KernelIdeal.Taps
open Idealize.ShloMosaic Idealize.ShloMosaic.TcCoe Idealize.ShloMosaic.StableHlo Idealize.SL.Sem

/-! ## The five stretches -/

section Stretches
variable {F : FTy → Type} [FloatOps F]

/-- The edge table's two rows. -/
abbrev segA : List (HloOp τ sig (Elt F)) :=
  ( StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F))
  :: StableHlo.reshape main_v0 main_v1 rfl shapeCasts_S1x800000_S800000
  :: StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F))
  :: StableHlo.reshape main_v2 main_v3 rfl shapeCasts_S1x800000_S800000
  :: [] )
/-- The first shift. -/
abbrev seg1 : List (HloOp τ sig (Elt F)) :=
  ( StableHlo.nullary main_c (constantI S_ 32 0#32)
  :: StableHlo.unary main_c main_v4 (broadcastInDim S800000 ![] bcast_S_S800000 : (⟨S_, .i32⟩ : BufTy).Contents (Elt F) → (⟨S800000, .i32⟩ : BufTy).Contents (Elt F))
  :: StableHlo.binary main_v1 main_v4 main_v5 (cmpi .slt : (⟨S800000, .i32⟩ : BufTy).Contents (Elt F) → (⟨S800000, .i32⟩ : BufTy).Contents (Elt F) → (⟨S800000, .i1⟩ : BufTy).Contents (Elt F))
  :: StableHlo.nullary main_c_0 (constantI S_ 32 50000#32)
  :: StableHlo.unary main_c_0 main_v6 (broadcastInDim S800000 ![] bcast_S_S800000 : (⟨S_, .i32⟩ : BufTy).Contents (Elt F) → (⟨S800000, .i32⟩ : BufTy).Contents (Elt F))
  :: StableHlo.binary main_v1 main_v6 main_v7 (addi : (⟨S800000, .i32⟩ : BufTy).Contents (Elt F) → (⟨S800000, .i32⟩ : BufTy).Contents (Elt F) → (⟨S800000, .i32⟩ : BufTy).Contents (Elt F))
  :: StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v8 main_v9 (broadcastInDim S800000x1 ![0] bcast_S800000_S800000x1_0 : (⟨S800000, .i32⟩ : BufTy).Contents (Elt F) → (⟨S800000x1, .i32⟩ : BufTy).Contents (Elt F))
  :: StableHlo.binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
  :: StableHlo.nullary main_cst (constant S_ .f32 0x00000000#32)
  :: StableHlo.unary main_cst main_v11 (broadcastInDim S50000x64 ![] bcast_S_S50000x64 : (⟨S_, .f32⟩ : BufTy).Contents (Elt F) → (⟨S50000x64, .f32⟩ : BufTy).Contents (Elt F))
  :: StableHlo.unary main_v3 main_v12 (broadcastInDim S800000x1 ![0] bcast_S800000_S800000x1_0 : (⟨S800000, .i32⟩ : BufTy).Contents (Elt F) → (⟨S800000x1, .i32⟩ : BufTy).Contents (Elt F))
  :: StableHlo.ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
  :: [] )
/-- The second shift. -/
abbrev seg2 : List (HloOp τ sig (Elt F)) :=
  ( StableHlo.nullary main_c_1 (constantI S_ 32 0#32)
  :: StableHlo.unary main_c_1 main_v14 (broadcastInDim S800000 ![] bcast_S_S800000 : (⟨S_, .i32⟩ : BufTy).Contents (Elt F) → (⟨S800000, .i32⟩ : BufTy).Contents (Elt F))
  :: StableHlo.binary main_v1 main_v14 main_v15 (cmpi .slt : (⟨S800000, .i32⟩ : BufTy).Contents (Elt F) → (⟨S800000, .i32⟩ : BufTy).Contents (Elt F) → (⟨S800000, .i1⟩ : BufTy).Contents (Elt F))
  :: StableHlo.nullary main_c_2 (constantI S_ 32 50000#32)
  :: StableHlo.unary main_c_2 main_v16 (broadcastInDim S800000 ![] bcast_S_S800000 : (⟨S_, .i32⟩ : BufTy).Contents (Elt F) → (⟨S800000, .i32⟩ : BufTy).Contents (Elt F))
  :: StableHlo.binary main_v1 main_v16 main_v17 (addi : (⟨S800000, .i32⟩ : BufTy).Contents (Elt F) → (⟨S800000, .i32⟩ : BufTy).Contents (Elt F) → (⟨S800000, .i32⟩ : BufTy).Contents (Elt F))
  :: StableHlo.ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v18 main_v19 (broadcastInDim S800000x1 ![0] bcast_S800000_S800000x1_0 : (⟨S800000, .i32⟩ : BufTy).Contents (Elt F) → (⟨S800000x1, .i32⟩ : BufTy).Contents (Elt F))
  :: StableHlo.binary main_v13 main_v19 main_v20 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
  :: StableHlo.nullary main_cst_3 (constant S_ .f32 0x00000000#32)
  :: StableHlo.unary main_cst_3 main_v21 (broadcastInDim S50000x64 ![] bcast_S_S50000x64 : (⟨S_, .f32⟩ : BufTy).Contents (Elt F) → (⟨S50000x64, .f32⟩ : BufTy).Contents (Elt F))
  :: StableHlo.unary main_v3 main_v22 (broadcastInDim S800000x1 ![0] bcast_S800000_S800000x1_0 : (⟨S800000, .i32⟩ : BufTy).Contents (Elt F) → (⟨S800000x1, .i32⟩ : BufTy).Contents (Elt F))
  :: StableHlo.ternary main_v21 main_v22 main_v20 main_v23 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
  :: [] )
/-- The third shift. -/
abbrev seg3 : List (HloOp τ sig (Elt F)) :=
  ( StableHlo.nullary main_c_4 (constantI S_ 32 0#32)
  :: StableHlo.unary main_c_4 main_v24 (broadcastInDim S800000 ![] bcast_S_S800000 : (⟨S_, .i32⟩ : BufTy).Contents (Elt F) → (⟨S800000, .i32⟩ : BufTy).Contents (Elt F))
  :: StableHlo.binary main_v1 main_v24 main_v25 (cmpi .slt : (⟨S800000, .i32⟩ : BufTy).Contents (Elt F) → (⟨S800000, .i32⟩ : BufTy).Contents (Elt F) → (⟨S800000, .i1⟩ : BufTy).Contents (Elt F))
  :: StableHlo.nullary main_c_5 (constantI S_ 32 50000#32)
  :: StableHlo.unary main_c_5 main_v26 (broadcastInDim S800000 ![] bcast_S_S800000 : (⟨S_, .i32⟩ : BufTy).Contents (Elt F) → (⟨S800000, .i32⟩ : BufTy).Contents (Elt F))
  :: StableHlo.binary main_v1 main_v26 main_v27 (addi : (⟨S800000, .i32⟩ : BufTy).Contents (Elt F) → (⟨S800000, .i32⟩ : BufTy).Contents (Elt F) → (⟨S800000, .i32⟩ : BufTy).Contents (Elt F))
  :: StableHlo.ternary main_v25 main_v27 main_v1 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v28 main_v29 (broadcastInDim S800000x1 ![0] bcast_S800000_S800000x1_0 : (⟨S800000, .i32⟩ : BufTy).Contents (Elt F) → (⟨S800000x1, .i32⟩ : BufTy).Contents (Elt F))
  :: StableHlo.binary main_v23 main_v29 main_v30 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
  :: StableHlo.nullary main_cst_6 (constant S_ .f32 0x00000000#32)
  :: StableHlo.unary main_cst_6 main_v31 (broadcastInDim S50000x64 ![] bcast_S_S50000x64 : (⟨S_, .f32⟩ : BufTy).Contents (Elt F) → (⟨S50000x64, .f32⟩ : BufTy).Contents (Elt F))
  :: StableHlo.unary main_v3 main_v32 (broadcastInDim S800000x1 ![0] bcast_S800000_S800000x1_0 : (⟨S800000, .i32⟩ : BufTy).Contents (Elt F) → (⟨S800000x1, .i32⟩ : BufTy).Contents (Elt F))
  :: StableHlo.ternary main_v31 main_v32 main_v30 main_v33 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
  :: [] )
/-- The stacking and the changes of float format. -/
abbrev segC : List (HloOp τ sig (Elt F)) :=
  ( StableHlo.unary main_arg0 main_v34 (broadcastInDim S1x50000x64 ![1, 2] bcast_S50000x64_S1x50000x64_1_2 : (⟨S50000x64, .f32⟩ : BufTy).Contents (Elt F) → (⟨S1x50000x64, .f32⟩ : BufTy).Contents (Elt F))
  :: StableHlo.unary main_v13 main_v35 (broadcastInDim S1x50000x64 ![1, 2] bcast_S50000x64_S1x50000x64_1_2 : (⟨S50000x64, .f32⟩ : BufTy).Contents (Elt F) → (⟨S1x50000x64, .f32⟩ : BufTy).Contents (Elt F))
  :: StableHlo.unary main_v23 main_v36 (broadcastInDim S1x50000x64 ![1, 2] bcast_S50000x64_S1x50000x64_1_2 : (⟨S50000x64, .f32⟩ : BufTy).Contents (Elt F) → (⟨S1x50000x64, .f32⟩ : BufTy).Contents (Elt F))
  :: StableHlo.unary main_v33 main_v37 (broadcastInDim S1x50000x64 ![1, 2] bcast_S50000x64_S1x50000x64_1_2 : (⟨S50000x64, .f32⟩ : BufTy).Contents (Elt F) → (⟨S1x50000x64, .f32⟩ : BufTy).Contents (Elt F))
  :: StableHlo.nary ![main_v34, main_v35, main_v36, main_v37] main_v38 (fun u => concatenate S4x50000x64 0 [⟨S1x50000x64, u 0⟩, ⟨S1x50000x64, u 1⟩, ⟨S1x50000x64, u 2⟩, ⟨S1x50000x64, u 3⟩] concatenates_S1x50000x64_S1x50000x64_S1x50000x64_S1x50000x64_S4x50000x64_d0)
  :: StableHlo.unary main_v38 main_v39 ((truncf .bf16 · bitsLt_bf16_f32) : (⟨S4x50000x64, .f32⟩ : BufTy).Contents (Elt F) → (⟨S4x50000x64, .bf16⟩ : BufTy).Contents (Elt F))
  :: StableHlo.unary main_arg2 main_v40 ((truncf .bf16 · bitsLt_bf16_f32) : (⟨S4x64x64, .f32⟩ : BufTy).Contents (Elt F) → (⟨S4x64x64, .bf16⟩ : BufTy).Contents (Elt F))
  :: [] )

/-- The host operations are the five stretches in a row. -/
theorem ops_split : (hostOps0 : List (HloOp τ sig (Elt F))) = segA ++ (seg1 ++ (seg2 ++ (seg3 ++ segC))) := rfl

end Stretches

/-- The contents after two stretches in a row are the second's after the first's. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => simp only [List.cons_append, StableHlo.after_cons, ih]

/-! ## One shift from the node rows -/

/-- A shift with the edges' source and target nodes given as two arrays. -/
def shiftForm (src dst : (⟨S800000, .i32⟩ : BufTy).Contents (Elt Ideal)) (x : FVec Ideal S50000x64 .f32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32)))
          src)))

/-- Row 0 of the edge table: the source nodes. -/
def srcRow (e : (⟨S2x800000, .i32⟩ : BufTy).Contents (Elt Ideal)) : (⟨S800000, .i32⟩ : BufTy).Contents (Elt Ideal) :=
  fun i => shapeCast S800000 (extractStridedSlice S1x800000 ![0, 0] e slices_S2x800000_S1x800000_0_0) shapeCasts_S1x800000_S800000 i
/-- Row 1 of the edge table: the target nodes. -/
def dstRow (e : (⟨S2x800000, .i32⟩ : BufTy).Contents (Elt Ideal)) : (⟨S800000, .i32⟩ : BufTy).Contents (Elt Ideal) :=
  fun i => shapeCast S800000 (extractStridedSlice S1x800000 ![1, 0] e slices_S2x800000_S1x800000_1_0) shapeCasts_S1x800000_S800000 i

/-- The shift along the edge table's rows. -/
theorem shift_form (e : (⟨S2x800000, .i32⟩ : BufTy).Contents (Elt Ideal)) (x : FVec Ideal S50000x64 .f32) :
    shiftForm (srcRow e) (dstRow e) x = shift e x := rfl

/-! ## Each stretch, from any contents before it -/

theorem segA_v1 (W : Valuation τ sig (Elt Ideal)) :
    (StableHlo.after (segA (F := Ideal)) W (Proc.devRef (τ := τ) .tc main_v1) : S800000.Idx → BitVec 32) = srcRow (W (Proc.devRef (τ := τ) .tc main_arg1)) := by
  dsimp only [segA]
  after_results
  all_goals rfl
theorem segA_v3 (W : Valuation τ sig (Elt Ideal)) :
    (StableHlo.after (segA (F := Ideal)) W (Proc.devRef (τ := τ) .tc main_v3) : S800000.Idx → BitVec 32) = dstRow (W (Proc.devRef (τ := τ) .tc main_arg1)) := by
  dsimp only [segA]
  after_results
  all_goals rfl
theorem segA_keep_arg0 (W : Valuation τ sig (Elt Ideal)) :
    (StableHlo.after (segA (F := Ideal)) W (Proc.devRef (τ := τ) .tc main_arg0) : S50000x64.Idx → EReal) = W (Proc.devRef (τ := τ) .tc main_arg0) := by
  dsimp only [segA]
  after_results
  all_goals rfl

theorem seg1_v13 (W : Valuation τ sig (Elt Ideal)) :
    (StableHlo.after (seg1 (F := Ideal)) W (Proc.devRef (τ := τ) .tc main_v13) : S50000x64.Idx → EReal) = shiftForm (W (Proc.devRef (τ := τ) .tc main_v1)) (W (Proc.devRef (τ := τ) .tc main_v3)) (W (Proc.devRef (τ := τ) .tc main_arg0)) := by
  dsimp only [seg1]
  after_results
  all_goals rfl
theorem seg1_keep_arg0 (W : Valuation τ sig (Elt Ideal)) :
    (StableHlo.after (seg1 (F := Ideal)) W (Proc.devRef (τ := τ) .tc main_arg0) : S50000x64.Idx → EReal) = W (Proc.devRef (τ := τ) .tc main_arg0) := by
  dsimp only [seg1]
  after_results
  all_goals rfl
theorem seg1_keep_v1 (W : Valuation τ sig (Elt Ideal)) :
    (StableHlo.after (seg1 (F := Ideal)) W (Proc.devRef (τ := τ) .tc main_v1) : S800000.Idx → BitVec 32) = W (Proc.devRef (τ := τ) .tc main_v1) := by
  dsimp only [seg1]
  after_results
  all_goals rfl
theorem seg1_keep_v3 (W : Valuation τ sig (Elt Ideal)) :
    (StableHlo.after (seg1 (F := Ideal)) W (Proc.devRef (τ := τ) .tc main_v3) : S800000.Idx → BitVec 32) = W (Proc.devRef (τ := τ) .tc main_v3) := by
  dsimp only [seg1]
  after_results
  all_goals rfl

theorem seg2_v23 (W : Valuation τ sig (Elt Ideal)) :
    (StableHlo.after (seg2 (F := Ideal)) W (Proc.devRef (τ := τ) .tc main_v23) : S50000x64.Idx → EReal) = shiftForm (W (Proc.devRef (τ := τ) .tc main_v1)) (W (Proc.devRef (τ := τ) .tc main_v3)) (W (Proc.devRef (τ := τ) .tc main_v13)) := by
  dsimp only [seg2]
  after_results
  all_goals rfl
theorem seg2_keep_arg0 (W : Valuation τ sig (Elt Ideal)) :
    (StableHlo.after (seg2 (F := Ideal)) W (Proc.devRef (τ := τ) .tc main_arg0) : S50000x64.Idx → EReal) = W (Proc.devRef (τ := τ) .tc main_arg0) := by
  dsimp only [seg2]
  after_results
  all_goals rfl
theorem seg2_keep_v13 (W : Valuation τ sig (Elt Ideal)) :
    (StableHlo.after (seg2 (F := Ideal)) W (Proc.devRef (τ := τ) .tc main_v13) : S50000x64.Idx → EReal) = W (Proc.devRef (τ := τ) .tc main_v13) := by
  dsimp only [seg2]
  after_results
  all_goals rfl
theorem seg2_keep_v1 (W : Valuation τ sig (Elt Ideal)) :
    (StableHlo.after (seg2 (F := Ideal)) W (Proc.devRef (τ := τ) .tc main_v1) : S800000.Idx → BitVec 32) = W (Proc.devRef (τ := τ) .tc main_v1) := by
  dsimp only [seg2]
  after_results
  all_goals rfl
theorem seg2_keep_v3 (W : Valuation τ sig (Elt Ideal)) :
    (StableHlo.after (seg2 (F := Ideal)) W (Proc.devRef (τ := τ) .tc main_v3) : S800000.Idx → BitVec 32) = W (Proc.devRef (τ := τ) .tc main_v3) := by
  dsimp only [seg2]
  after_results
  all_goals rfl

theorem seg3_v33 (W : Valuation τ sig (Elt Ideal)) :
    (StableHlo.after (seg3 (F := Ideal)) W (Proc.devRef (τ := τ) .tc main_v33) : S50000x64.Idx → EReal) = shiftForm (W (Proc.devRef (τ := τ) .tc main_v1)) (W (Proc.devRef (τ := τ) .tc main_v3)) (W (Proc.devRef (τ := τ) .tc main_v23)) := by
  dsimp only [seg3]
  after_results
  all_goals rfl
theorem seg3_keep_arg0 (W : Valuation τ sig (Elt Ideal)) :
    (StableHlo.after (seg3 (F := Ideal)) W (Proc.devRef (τ := τ) .tc main_arg0) : S50000x64.Idx → EReal) = W (Proc.devRef (τ := τ) .tc main_arg0) := by
  dsimp only [seg3]
  after_results
  all_goals rfl
theorem seg3_keep_v13 (W : Valuation τ sig (Elt Ideal)) :
    (StableHlo.after (seg3 (F := Ideal)) W (Proc.devRef (τ := τ) .tc main_v13) : S50000x64.Idx → EReal) = W (Proc.devRef (τ := τ) .tc main_v13) := by
  dsimp only [seg3]
  after_results
  all_goals rfl
theorem seg3_keep_v23 (W : Valuation τ sig (Elt Ideal)) :
    (StableHlo.after (seg3 (F := Ideal)) W (Proc.devRef (τ := τ) .tc main_v23) : S50000x64.Idx → EReal) = W (Proc.devRef (τ := τ) .tc main_v23) := by
  dsimp only [seg3]
  after_results
  all_goals rfl

theorem segC_v39 (W : Valuation τ sig (Elt Ideal)) :
    (StableHlo.after (segC (F := Ideal)) W (Proc.devRef (τ := τ) .tc main_v39) : S4x50000x64.Idx → EReal) = stackOf (W (Proc.devRef (τ := τ) .tc main_arg0)) (W (Proc.devRef (τ := τ) .tc main_v13)) (W (Proc.devRef (τ := τ) .tc main_v23)) (W (Proc.devRef (τ := τ) .tc main_v33)) := by
  dsimp only [segC]
  after_results
  all_goals rfl

/-! ## Chained -/

variable (m : (ℓ : Loc nD τ sig) → Buf (Elt Ideal) ℓ)

/-- The staged tap array as the region finds it: the features and their three shifts, stacked. -/
theorem V_stack (c : Dev nD) :
    (V m c main_v39 : S4x50000x64.Idx → EReal) = stack (m ((c : Thread nD τ).loc main_arg1)) (m ((c : Thread nD τ).loc main_arg0)) := by
  show StableHlo.after hostOps0 (fun b => m (c, b)) (Proc.devRef (τ := τ) .tc main_v39) = _
  rw [ops_split, after_append, after_append, after_append, after_append]
  rw [segC_v39]
  rw [seg3_v33, seg3_keep_arg0, seg3_keep_v13, seg3_keep_v23]
  rw [seg2_v23, seg2_keep_arg0, seg2_keep_v13, seg2_keep_v1, seg2_keep_v3]
  rw [seg1_v13, seg1_keep_arg0, seg1_keep_v1, seg1_keep_v3]
  rw [segA_v1, segA_v3, segA_keep_arg0]
  rw [shift_form, shift_form, shift_form]
  rfl

/-- The staged weights as the region finds them: the weight argument, its float format narrowed. -/
theorem V_wts (c : Dev nD) :
    (V m c main_v40 : S4x64x64.Idx → EReal) = (m ((c : Thread nD τ).loc main_arg2) : S4x64x64.Idx → EReal) := by
  dsimp only [V, hostOps0]
  after_results_simp
  rfl

end Cert.KernelIdeal.Entry

end
-- ==== Proof.Spec.lean ====
/-
  The graph filter's output as one function of its data.

  With taps X₀ = x and Xₖ₊₁ = S Xₖ (S the sum-aggregation shift along the edges), weights W : 4 × 64 × 64 and
  biases B : 4 × 64, the filter is y = Σₖ (Xₖ Wₖᵀ + Bₖ): entry (r, j) of tap k's term is
  Σ_d Xₖ[r, d] · Wₖ[j, d] + Bₖ[j]. Both programs add the four terms from the left, tap by tap, the product first
  and the bias after it; the blocked program starts from an accumulator of zeros, which changes nothing
  (0 + a = a on the extended reals, infinities included).
-/
import Idealize.ShloMosaic.PureOps.Ideal
import Idealize.ShloMosaic.Lib.ValueIdx

noncomputable section

namespace Cert.Filter

open Idealize.ShloMosaic Idealize.ShloMosaic.ValueIdx

/-- Node features: 50000 nodes, 64 channels. -/
abbrev Feat : Type := (⟨2, ![50000, 64]⟩ : Shape).Idx → EReal
/-- The four taps' weight matrices, `W k j d`: tap, output channel, input channel. -/
abbrev Wts : Type := (⟨3, ![4, 64, 64]⟩ : Shape).Idx → EReal
/-- The four taps' biases, `B k j`. -/
abbrev Bias : Type := (⟨2, ![4, 64]⟩ : Shape).Idx → EReal

/-- Row `r` of the features `X` against row `j` of tap `k`'s weights: entry (r, j) of X · Wₖᵀ. -/
def rowDot (X : Feat) (W : Wts) (k : Fin 4) (r : Fin 50000) (j : Fin 64) : EReal :=
  ∑ d : Fin 64, X (ix2 r d) * W (ix3 k j d)

/-- Entry (r, j) of the filter: the four taps' terms added from the left, each product followed by its bias. -/
def filterAt (X0 X1 X2 X3 : Feat) (W : Wts) (B : Bias) (r : Fin 50000) (j : Fin 64) : EReal :=
  ((((((rowDot X0 W 0 r j + B (ix2 0 j)) + rowDot X1 W 1 r j) + B (ix2 1 j)) + rowDot X2 W 2 r j) + B (ix2 2 j))
    + rowDot X3 W 3 r j) + B (ix2 3 j)

/-- The filter's output array. -/
def filter (X0 X1 X2 X3 : Feat) (W : Wts) (B : Bias) : Feat :=
  fun i => filterAt X0 X1 X2 X3 W B (i 0) (i 1)

theorem filter_apply (X0 X1 X2 X3 : Feat) (W : Wts) (B : Bias) (r : Fin 50000) (j : Fin 64) :
    filter X0 X1 X2 X3 W B (ix2 r j) = filterAt X0 X1 X2 X3 W B r j := rfl

/-- The same sum started from an accumulator of zeros, as the blocked program computes it. -/
theorem filterAt_from_zero (X0 X1 X2 X3 : Feat) (W : Wts) (B : Bias) (r : Fin 50000) (j : Fin 64) :
    (((((((0 + rowDot X0 W 0 r j) + B (ix2 0 j)) + rowDot X1 W 1 r j) + B (ix2 1 j)) + rowDot X2 W 2 r j) + B (ix2 2 j))
      + rowDot X3 W 3 r j) + B (ix2 3 j) = filterAt X0 X1 X2 X3 W B r j := by
  unfold filterAt
  rw [zero_add]

end Cert.Filter

end
-- ==== Proof.KernelValue.lean ====
/-
  The blocked program's result array as one function of the arguments.

  Point t of the grid writes back rows 2000·t … 2000·t + 1999 of the result, and what it writes at (p, q) of that block
  is the stored value of the three blocks it staged: rows 2000·t … of each tap, and the whole weight and bias arrays. A
  row r of the result lies in the block of the point r / 2000 and in no other, and the 25 blocks cover the 50000 rows: so
  entry (r, j) of the result is the filter's entry (r, j) of the four taps the region found stacked in the staged
  array — the sum started from zero is the sum (0 + a = a). The staged taps are the features and their three graph
  shifts, the staged weights and biases the arguments: the result is the filter of the arguments.
-/
import proofs.«166097_j37812892074317_1_alg».proof.Proof.FrameIdeal
import proofs.«166097_j37812892074317_1_alg».proof.Proof.Payload
import proofs.«166097_j37812892074317_1_alg».proof.Proof.Taps
import proofs.«166097_j37812892074317_1_alg».proof.Proof.Entry
import proofs.«166097_j37812892074317_1_alg».proof.Proof.Spec
import Idealize.ShloMosaic.Lib.Pipeline.Value
import Idealize.ShloMosaic.Lib.ValueIdx

set_option maxRecDepth 16384

noncomputable section

namespace Cert.KernelIdeal.KVal

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point t: the taps' block moves along the rows with the output's, the weights and the
    biases stay. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 25 := by
  have h := t.isLt
  have hN : cfg0.N = 25 := N_0
  omega

/-- Row p of point t's block is row 2000·t + p of the array. -/
def row (t : Fin cfg0.N) (p : Fin 2000) : Fin 50000 := ⟨2000 * t.val + p.val, by have := t_lt t; have := p.isLt; omega⟩

/-! ## The staged blocks as entries of the arrays -/

theorem iblk0_at (c : Dev nD) (t : Fin cfg0.N) (k : Fin 4) (p : Fin 2000) (d : Fin 64) :
    (iblk m c 0 t : Vec Ideal S4x2000x64 .bf16) (ix3 k p d) = (V m c main_v39 : S4x50000x64.Idx → EReal) (ix3 k (row t p) d) := by
  obtain ⟨e0, e1, e2, -⟩ := idx_facts t
  unfold iblk
  rw [View.read_apply]
  show V m c main_v39 _ = V m c main_v39 _
  congr 1
  funext a
  apply Fin.ext
  match a with
  | ⟨0, _⟩ => show win0_0.index t (0 : Fin 3) * 4 + 1 * k.val = k.val; rw [e0]; omega
  | ⟨1, _⟩ => show win0_0.index t (1 : Fin 3) * 2000 + 1 * p.val = 2000 * t.val + p.val; rw [e1]; omega
  | ⟨2, _⟩ => show win0_0.index t (2 : Fin 3) * 64 + 1 * d.val = d.val; rw [e2]; omega

theorem iblk1_at (c : Dev nD) (t : Fin cfg0.N) (k : Fin 4) (q : Fin 64) (d : Fin 64) :
    (iblk m c 1 t : Vec Ideal S4x64x64 .bf16) (ix3 k q d) = (V m c main_v40 : S4x64x64.Idx → EReal) (ix3 k q d) := by
  obtain ⟨-, -, -, e0, e1, e2, -⟩ := idx_facts t
  unfold iblk
  rw [View.read_apply]
  show V m c main_v40 _ = V m c main_v40 _
  congr 1
  funext a
  apply Fin.ext
  match a with
  | ⟨0, _⟩ => show win0_1.index t (0 : Fin 3) * 4 + 1 * k.val = k.val; rw [e0]; omega
  | ⟨1, _⟩ => show win0_1.index t (1 : Fin 3) * 64 + 1 * q.val = q.val; rw [e1]; omega
  | ⟨2, _⟩ => show win0_1.index t (2 : Fin 3) * 64 + 1 * d.val = d.val; rw [e2]; omega

theorem iblk2_at (c : Dev nD) (t : Fin cfg0.N) (k : Fin 4) (q : Fin 64) :
    (iblk m c 2 t : Vec Ideal S4x64 .f32) (ix2 k q) = (V m c main_arg3 : S4x64.Idx → EReal) (ix2 k q) := by
  obtain ⟨-, -, -, -, -, -, e0, e1, -⟩ := idx_facts t
  unfold iblk
  rw [View.read_apply]
  show V m c main_arg3 _ = V m c main_arg3 _
  congr 1
  funext a
  apply Fin.ext
  match a with
  | ⟨0, _⟩ => show win0_2.index t (0 : Fin 2) * 4 + 1 * k.val = k.val; rw [e0]; omega
  | ⟨1, _⟩ => show win0_2.index t (1 : Fin 2) * 64 + 1 * q.val = q.val; rw [e1]; omega

/-- Entry (p, q) of the output's block at point t is entry (2000·t + p, q) of the result array. -/
theorem emb3_at (t : Fin cfg0.N) (p : Fin 2000) (q : Fin 64) :
    ((cfg0.win 3).blk t).view.emb (ix2 p q) = (ix2 (row t p) q : S50000x64.Idx) := by
  obtain ⟨-, -, -, -, -, -, -, -, e0, e1⟩ := idx_facts t
  funext a
  apply Fin.ext
  match a with
  | ⟨0, _⟩ => show win0_3.index t (0 : Fin 2) * 2000 + 1 * p.val = 2000 * t.val + p.val; rw [e0]; omega
  | ⟨1, _⟩ => show win0_3.index t (1 : Fin 2) * 64 + 1 * q.val = q.val; rw [e1]; omega

/-! ## The result as one function of the staged arrays -/

/-- Tap k of a stacked array. -/
def tapOf (X : S4x50000x64.Idx → EReal) (k : Fin 4) : Cert.Filter.Feat := fun i => X (ix3 k (i 0 : Fin 50000) (i 1 : Fin 64))

theorem tapOf_apply (X : S4x50000x64.Idx → EReal) (k : Fin 4) (r : Fin 50000) (d : Fin 64) :
    tapOf X k (ix2 r d) = X (ix3 k r d) := rfl

/-- The filter of the four staged taps, the staged weights and the bias argument as the region finds them. -/
def G (c : Dev nD) : Cert.Filter.Feat :=
  Cert.Filter.filter (tapOf (V m c main_v39) 0) (tapOf (V m c main_v39) 1) (tapOf (V m c main_v39) 2) (tapOf (V m c main_v39) 3)
    (V m c main_v40) (V m c main_arg3)

/-- What point t writes back is block t of `G`. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after3]
  unfold out3
  rw [View.canon_unit_zero hz]
  refine funext fun (y : S2000x64.Idx) => ?_
  obtain ⟨p, q, rfl⟩ : ∃ (p : Fin 2000) (q : Fin 64), y = ix2 p q := ⟨y 0, y 1, eq_ix2 y⟩
  show stored (iblk m c 0 t) (iblk m c 1 t) (iblk m c 2 t) (ix2 p q) = G m c (((cfg0.win 3).blk t).view.emb (ix2 p q))
  refine (Pay.stored_apply (iblk m c 0 t) (iblk m c 1 t) (iblk m c 2 t) p q).trans ?_
  rw [emb3_at t p q]
  unfold G
  rw [Cert.Filter.filter_apply, ← Cert.Filter.filterAt_from_zero]
  unfold Cert.Filter.rowDot
  simp only [tapOf_apply, iblk0_at m c t, iblk1_at m c t, iblk2_at m c t]

/-- An index of the result array is in point t's block iff each coordinate is in the block's range. -/
theorem mem_blk3 (t : Fin cfg0.N) (i : S50000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v41).slice (win0_3.rect t)).set ↔ _
  rw [View.set_slice_whole, Rect.mem_set_unit]
  exact Iff.rfl

/-- Every entry of the result lies in the block of the point its row divided by 2000 names. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 25 := N_0
  have ht : (i 0).val / 2000 < cfg0.N := by rw [hN]; omega
  obtain ⟨-, -, -, -, -, -, -, -, e0, e1⟩ := idx_facts ⟨(i 0).val / 2000, ht⟩
  refine ⟨⟨(i 0).val / 2000, ht⟩, flush0_3 _, ?_⟩
  rw [mem_blk3]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, ht⟩ (1 : Fin 2) * 64 ≤ (i 1).val ∧ (i 1).val < win0_3.index ⟨(i 0).val / 2000, ht⟩ (1 : Fin 2) * 64 + 64
    rw [e1]; omega

/-- The result array after the run. -/
theorem final (c : Dev nD) : (dats m 0 c).arrAt 3 cfg0.N = G m c :=
  (dats m 0 c).arrAt_eq_of_cover 3 (G m c) (fun t _ => flushed_eq m c t) cover

/-! ## The result as the filter of the arguments -/

theorem tapOf_stack0 (e) (x : FVec Ideal S50000x64 .f32) : tapOf (Taps.stack e x) 0 = x := by
  funext i; obtain ⟨r, d, rfl⟩ : ∃ (r : Fin 50000) (d : Fin 64), i = ix2 r d := ⟨i 0, i 1, eq_ix2 i⟩
  rw [tapOf_apply]; unfold Taps.stack; exact Taps.stackOf_apply0 _ _ _ _ r d
theorem tapOf_stack1 (e) (x : FVec Ideal S50000x64 .f32) : tapOf (Taps.stack e x) 1 = Taps.shift e x := by
  funext i; obtain ⟨r, d, rfl⟩ : ∃ (r : Fin 50000) (d : Fin 64), i = ix2 r d := ⟨i 0, i 1, eq_ix2 i⟩
  rw [tapOf_apply]; unfold Taps.stack; exact Taps.stackOf_apply1 _ _ _ _ r d
theorem tapOf_stack2 (e) (x : FVec Ideal S50000x64 .f32) : tapOf (Taps.stack e x) 2 = Taps.shift e (Taps.shift e x) := by
  funext i; obtain ⟨r, d, rfl⟩ : ∃ (r : Fin 50000) (d : Fin 64), i = ix2 r d := ⟨i 0, i 1, eq_ix2 i⟩
  rw [tapOf_apply]; unfold Taps.stack; exact Taps.stackOf_apply2 _ _ _ _ r d
theorem tapOf_stack3 (e) (x : FVec Ideal S50000x64 .f32) : tapOf (Taps.stack e x) 3 = Taps.shift e (Taps.shift e (Taps.shift e x)) := by
  funext i; obtain ⟨r, d, rfl⟩ : ∃ (r : Fin 50000) (d : Fin 64), i = ix2 r d := ⟨i 0, i 1, eq_ix2 i⟩
  rw [tapOf_apply]; unfold Taps.stack; exact Taps.stackOf_apply3 _ _ _ _ r d

/-- The filter of the features and their three graph shifts. -/
def result (c : Dev nD) : Cert.Filter.Feat :=
  Cert.Filter.filter (m ((c : Thread nD τ).loc main_arg0))
    (Taps.shift (m ((c : Thread nD τ).loc main_arg1)) (m ((c : Thread nD τ).loc main_arg0)))
    (Taps.shift (m ((c : Thread nD τ).loc main_arg1)) (Taps.shift (m ((c : Thread nD τ).loc main_arg1)) (m ((c : Thread nD τ).loc main_arg0))))
    (Taps.shift (m ((c : Thread nD τ).loc main_arg1)) (Taps.shift (m ((c : Thread nD τ).loc main_arg1)) (Taps.shift (m ((c : Thread nD τ).loc main_arg1)) (m ((c : Thread nD τ).loc main_arg0)))))
    (m ((c : Thread nD τ).loc main_arg2)) (m ((c : Thread nD τ).loc main_arg3))

theorem G_eq (c : Dev nD) : G m c = result m c := by
  unfold G result
  rw [Entry.V_stack m c, Entry.V_wts m c, V_main_arg3 m c, tapOf_stack0, tapOf_stack1, tapOf_stack2, tapOf_stack3]

/-- The run: the result array at the filter of the arguments, the arguments unchanged. -/
theorem run : θ_run defs (onTc (τ := τ) (main (F := Ideal))) ⟨m, fun _ => 0, ρ⟩ fun r => ∀ c : Dev nD,
      r.2.mem ((c.tc : Thread nD τ).loc main_v41) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(((h c).1 3).trans (final m c)).trans (G_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c)))⟩)
    (run_main m ρ)

end Cert.KernelIdeal.KVal

end
-- ==== Proof.RefValue.lean ====
/-
  The reference program's result as the filter of its own taps.

  One shift S sends node features X to the sum-aggregation along the edges: the source indices are wrapped
  (a negative index i is read as i + 50000), the rows of X at the wrapped sources are gathered, and the gathered
  rows are added into an array of zeros at the target indices. The reference applies S three times to its first
  argument and adds the four taps' terms from the left; read index by index its result is the filter
  `Cert.Filter.filter` at the taps x, S x, S (S x), S (S (S x)). The gather and the scatter-add are never opened.
-/
import proofs.«166097_j37812892074317_1_alg».proof.Proof.Gen.ReferenceIdeal.Run
import proofs.«166097_j37812892074317_1_alg».proof.Proof.Gen.ReferenceIdeal.Read
import proofs.«166097_j37812892074317_1_alg».proof.Proof.Spec

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- One shift: the rows of `x` at the wrapped source indices (row 0 of `e`), added into zeros at the target
    indices (row 1 of `e`). The operations are the reference's, in its order and spelling. -/
def shift (e : (⟨S2x800000, .i32⟩ : BufTy).Contents (Elt Ideal)) (x : FVec Ideal S50000x64 .f32) :
    FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0
      (shapeCast _ (extractStridedSlice S1x800000 ![1, 0] e slices_S2x800000_S1x800000_1_0) shapeCasts_S1x800000_S800000))
    (Host.gather gather_S50000x64_S800000x1_S800000x64_1_0_n_n_0_1_164 x
      (broadcastInDim S800000x1 ![0] bcast_S800000_S800000x1_0
        (select
          (cmpi .slt
            (shapeCast _ (extractStridedSlice S1x800000 ![0, 0] e slices_S2x800000_S1x800000_0_0) shapeCasts_S1x800000_S800000)
            (broadcastInDim S800000 ![] bcast_S_S800000 (constantI S_ 32 0#32)))
          (addi
            (shapeCast _ (extractStridedSlice S1x800000 ![0, 0] e slices_S2x800000_S1x800000_0_0) shapeCasts_S1x800000_S800000)
            (broadcastInDim S800000 ![] bcast_S_S800000 (constantI S_ 32 50000#32)))
          (shapeCast _ (extractStridedSlice S1x800000 ![0, 0] e slices_S2x800000_S1x800000_0_0) shapeCasts_S1x800000_S800000))))

/-- The first shifted tap is the shift of the first argument. -/
theorem tap1 (x : FVec Ideal S50000x64 .f32) (e : (⟨S2x800000, .i32⟩ : BufTy).Contents (Elt Ideal)) :
    Read.val_main_v22 (F := Ideal) x e = shift e x := by
  unfold Read.val_main_v22 Read.val_main_v21 Read.val_main_v20 Read.val_main_cst Read.val_main_v19 Read.val_main_v18
    Read.val_main_v17 Read.val_main_v16 Read.val_main_v15 Read.val_main_c_0 Read.val_main_v14 Read.val_main_v13
    Read.val_main_c Read.val_main_v3 Read.val_main_v2 Read.val_main_v1 Read.val_main_v0 shift
  rfl

/-- The second is the shift of the first. -/
theorem tap2 (x : FVec Ideal S50000x64 .f32) (e : (⟨S2x800000, .i32⟩ : BufTy).Contents (Elt Ideal)) :
    Read.val_main_v42 (F := Ideal) x e = shift e (Read.val_main_v22 (F := Ideal) x e) := by
  unfold Read.val_main_v42 Read.val_main_v41 Read.val_main_v40 Read.val_main_cst_3 Read.val_main_v39 Read.val_main_v38
    Read.val_main_v37 Read.val_main_v36 Read.val_main_v35 Read.val_main_c_2 Read.val_main_v34 Read.val_main_v33
    Read.val_main_c_1 Read.val_main_v3 Read.val_main_v2 Read.val_main_v1 Read.val_main_v0 shift
  rfl

/-- The third is the shift of the second. -/
theorem tap3 (x : FVec Ideal S50000x64 .f32) (e : (⟨S2x800000, .i32⟩ : BufTy).Contents (Elt Ideal)) :
    Read.val_main_v62 (F := Ideal) x e = shift e (Read.val_main_v42 (F := Ideal) x e) := by
  unfold Read.val_main_v62 Read.val_main_v61 Read.val_main_v60 Read.val_main_cst_6 Read.val_main_v59 Read.val_main_v58
    Read.val_main_v57 Read.val_main_v56 Read.val_main_v55 Read.val_main_c_5 Read.val_main_v54 Read.val_main_v53
    Read.val_main_c_4 Read.val_main_v3 Read.val_main_v2 Read.val_main_v1 Read.val_main_v0 shift
  rfl

/-! ## The biases: row k of the bias array, the same on every row of the result -/

theorem bias0 (B : FVec Ideal S4x64 .f32) (r : Fin 50000) (j : Fin 64) :
    Read.val_main_v11 (F := Ideal) B (ix2 r j) = B (ix2 0 j) := by
  rw [Read.val_main_v11_apply, Read.val_main_v10_apply, Read.val_main_v9_apply, Read.val_main_v8_apply]
  refine congrArg B (funext fun a => Fin.ext ?_)
  have hj : j.val < 64 := j.isLt
  match a with
  | ⟨0, _⟩ => rfl
  | ⟨1, _⟩ => show j.val % 64 = j.val; omega

theorem bias1 (B : FVec Ideal S4x64 .f32) (r : Fin 50000) (j : Fin 64) :
    Read.val_main_v31 (F := Ideal) B (ix2 r j) = B (ix2 1 j) := by
  rw [Read.val_main_v31_apply, Read.val_main_v30_apply, Read.val_main_v29_apply, Read.val_main_v28_apply]
  refine congrArg B (funext fun a => Fin.ext ?_)
  have hj : j.val < 64 := j.isLt
  match a with
  | ⟨0, _⟩ => rfl
  | ⟨1, _⟩ => show j.val % 64 = j.val; omega

theorem bias2 (B : FVec Ideal S4x64 .f32) (r : Fin 50000) (j : Fin 64) :
    Read.val_main_v51 (F := Ideal) B (ix2 r j) = B (ix2 2 j) := by
  rw [Read.val_main_v51_apply, Read.val_main_v50_apply, Read.val_main_v49_apply, Read.val_main_v48_apply]
  refine congrArg B (funext fun a => Fin.ext ?_)
  have hj : j.val < 64 := j.isLt
  match a with
  | ⟨0, _⟩ => rfl
  | ⟨1, _⟩ => show j.val % 64 = j.val; omega

theorem bias3 (B : FVec Ideal S4x64 .f32) (r : Fin 50000) (j : Fin 64) :
    Read.val_main_v71 (F := Ideal) B (ix2 r j) = B (ix2 3 j) := by
  rw [Read.val_main_v71_apply, Read.val_main_v70_apply, Read.val_main_v69_apply, Read.val_main_v68_apply]
  refine congrArg B (funext fun a => Fin.ext ?_)
  have hj : j.val < 64 := j.isLt
  match a with
  | ⟨0, _⟩ => rfl
  | ⟨1, _⟩ => show j.val % 64 = j.val; omega

/-! ## The weights: slice k of the weight array, transposed — entry (d, j) of the right operand is W k j d -/

theorem wt0 (W : FVec Ideal S4x64x64 .f32) (r : Fin 50000) (j d : Fin 64) :
    Read.val_main_v6 (F := Ideal) W (Read.ridx_main_v7 (ix2 r j) d) = W (ix3 0 j d) := by
  rw [Read.val_main_v6_apply, Read.val_main_v5_apply, Read.val_main_v4_apply]
  refine congrArg W (funext fun a => Fin.ext ?_)
  have hj : j.val < 64 := j.isLt
  have hd : d.val < 64 := d.isLt
  match a with
  | ⟨0, _⟩ => rfl
  | ⟨1, _⟩ => show (j.val * 64 + d.val) / 64 % 64 = j.val; omega
  | ⟨2, _⟩ => show (j.val * 64 + d.val) % 64 = d.val; omega

theorem wt1 (W : FVec Ideal S4x64x64 .f32) (r : Fin 50000) (j d : Fin 64) :
    Read.val_main_v25 (F := Ideal) W (Read.ridx_main_v26 (ix2 r j) d) = W (ix3 1 j d) := by
  rw [Read.val_main_v25_apply, Read.val_main_v24_apply, Read.val_main_v23_apply]
  refine congrArg W (funext fun a => Fin.ext ?_)
  have hj : j.val < 64 := j.isLt
  have hd : d.val < 64 := d.isLt
  match a with
  | ⟨0, _⟩ => rfl
  | ⟨1, _⟩ => show (j.val * 64 + d.val) / 64 % 64 = j.val; omega
  | ⟨2, _⟩ => show (j.val * 64 + d.val) % 64 = d.val; omega

theorem wt2 (W : FVec Ideal S4x64x64 .f32) (r : Fin 50000) (j d : Fin 64) :
    Read.val_main_v45 (F := Ideal) W (Read.ridx_main_v46 (ix2 r j) d) = W (ix3 2 j d) := by
  rw [Read.val_main_v45_apply, Read.val_main_v44_apply, Read.val_main_v43_apply]
  refine congrArg W (funext fun a => Fin.ext ?_)
  have hj : j.val < 64 := j.isLt
  have hd : d.val < 64 := d.isLt
  match a with
  | ⟨0, _⟩ => rfl
  | ⟨1, _⟩ => show (j.val * 64 + d.val) / 64 % 64 = j.val; omega
  | ⟨2, _⟩ => show (j.val * 64 + d.val) % 64 = d.val; omega

theorem wt3 (W : FVec Ideal S4x64x64 .f32) (r : Fin 50000) (j d : Fin 64) :
    Read.val_main_v65 (F := Ideal) W (Read.ridx_main_v66 (ix2 r j) d) = W (ix3 3 j d) := by
  rw [Read.val_main_v65_apply, Read.val_main_v64_apply, Read.val_main_v63_apply]
  refine congrArg W (funext fun a => Fin.ext ?_)
  have hj : j.val < 64 := j.isLt
  have hd : d.val < 64 := d.isLt
  match a with
  | ⟨0, _⟩ => rfl
  | ⟨1, _⟩ => show (j.val * 64 + d.val) / 64 % 64 = j.val; omega
  | ⟨2, _⟩ => show (j.val * 64 + d.val) % 64 = d.val; omega

/-! ## The four products: entry (r, j) of tap k's product is the row sum `Cert.Filter.rowDot` -/

theorem dot0 (x : FVec Ideal S50000x64 .f32) (W : FVec Ideal S4x64x64 .f32) (r : Fin 50000) (j : Fin 64) :
    Read.val_main_v7 (F := Ideal) x W (ix2 r j) = Cert.Filter.rowDot x W 0 r j := by
  rw [Read.val_main_v7_apply]
  unfold Cert.Filter.rowDot
  refine Finset.sum_congr rfl fun d _ => ?_
  rw [wt0 W r j d]
  have hl : Read.lidx_main_v7 (ix2 r j) d = ix2 r d :=
    funext fun a => Fin.ext (by match a with | ⟨0, _⟩ => rfl | ⟨1, _⟩ => rfl)
  rw [hl]

theorem dot1 (y : FVec Ideal S50000x64 .f32) (x : FVec Ideal S50000x64 .f32)
    (e : (⟨S2x800000, .i32⟩ : BufTy).Contents (Elt Ideal)) (W : FVec Ideal S4x64x64 .f32) (r : Fin 50000) (j : Fin 64)
    (hy : Read.val_main_v22 (F := Ideal) x e = y) :
    Read.val_main_v26 (F := Ideal) x e W (ix2 r j) = Cert.Filter.rowDot y W 1 r j := by
  rw [Read.val_main_v26_apply, hy]
  unfold Cert.Filter.rowDot
  refine Finset.sum_congr rfl fun d _ => ?_
  rw [wt1 W r j d]
  have hl : Read.lidx_main_v26 (ix2 r j) d = ix2 r d :=
    funext fun a => Fin.ext (by match a with | ⟨0, _⟩ => rfl | ⟨1, _⟩ => rfl)
  rw [hl]

theorem dot2 (y : FVec Ideal S50000x64 .f32) (x : FVec Ideal S50000x64 .f32)
    (e : (⟨S2x800000, .i32⟩ : BufTy).Contents (Elt Ideal)) (W : FVec Ideal S4x64x64 .f32) (r : Fin 50000) (j : Fin 64)
    (hy : Read.val_main_v42 (F := Ideal) x e = y) :
    Read.val_main_v46 (F := Ideal) x e W (ix2 r j) = Cert.Filter.rowDot y W 2 r j := by
  rw [Read.val_main_v46_apply, hy]
  unfold Cert.Filter.rowDot
  refine Finset.sum_congr rfl fun d _ => ?_
  rw [wt2 W r j d]
  have hl : Read.lidx_main_v46 (ix2 r j) d = ix2 r d :=
    funext fun a => Fin.ext (by match a with | ⟨0, _⟩ => rfl | ⟨1, _⟩ => rfl)
  rw [hl]

theorem dot3 (y : FVec Ideal S50000x64 .f32) (x : FVec Ideal S50000x64 .f32)
    (e : (⟨S2x800000, .i32⟩ : BufTy).Contents (Elt Ideal)) (W : FVec Ideal S4x64x64 .f32) (r : Fin 50000) (j : Fin 64)
    (hy : Read.val_main_v62 (F := Ideal) x e = y) :
    Read.val_main_v66 (F := Ideal) x e W (ix2 r j) = Cert.Filter.rowDot y W 3 r j := by
  rw [Read.val_main_v66_apply, hy]
  unfold Cert.Filter.rowDot
  refine Finset.sum_congr rfl fun d _ => ?_
  rw [wt3 W r j d]
  have hl : Read.lidx_main_v66 (ix2 r j) d = ix2 r d :=
    funext fun a => Fin.ext (by match a with | ⟨0, _⟩ => rfl | ⟨1, _⟩ => rfl)
  rw [hl]

/-! ## The result -/

/-- The three shifted taps, as shifts of the first argument. -/
theorem taps (x : FVec Ideal S50000x64 .f32) (e : (⟨S2x800000, .i32⟩ : BufTy).Contents (Elt Ideal)) :
    Read.val_main_v22 (F := Ideal) x e = shift e x
    ∧ Read.val_main_v42 (F := Ideal) x e = shift e (shift e x)
    ∧ Read.val_main_v62 (F := Ideal) x e = shift e (shift e (shift e x)) := by
  have h1 := tap1 x e
  have h2 := tap2 x e
  have h3 := tap3 x e
  rw [h1] at h2
  rw [h2] at h3
  exact ⟨h1, h2, h3⟩

/-- The reference's result, as a function of its four arguments, is the filter of the taps x, S x, S (S x),
    S (S (S x)): index by index the four products and the four biases, added from the left. -/
theorem result_eq (x : FVec Ideal S50000x64 .f32) (e : (⟨S2x800000, .i32⟩ : BufTy).Contents (Elt Ideal))
    (W : FVec Ideal S4x64x64 .f32) (B : FVec Ideal S4x64 .f32) :
    Read.val_main_v72 (F := Ideal) x e W B
      = Cert.Filter.filter x (shift e x) (shift e (shift e x)) (shift e (shift e (shift e x))) W B := by
  funext i
  obtain ⟨r, j, rfl⟩ : ∃ (r : Fin 50000) (j : Fin 64), i = ix2 r j := ⟨i 0, i 1, eq_ix2 i⟩
  obtain ⟨h1, h2, h3⟩ := taps x e
  rw [Cert.Filter.filter_apply, Read.val_main_v72_apply, Read.val_main_v67_apply, Read.val_main_v52_apply,
    Read.val_main_v47_apply, Read.val_main_v32_apply, Read.val_main_v27_apply, Read.val_main_v12_apply,
    dot0 x W r j, dot1 _ x e W r j h1, dot2 _ x e W r j h2, dot3 _ x e W r j h3,
    bias0 B r j, bias1 B r j, bias2 B r j, bias3 B r j]
  rfl

/-! ## The run -/

/-- Every weakly fair execution of the reference ends with its result at the filter of the taps of its own
    arguments, the arguments unchanged. -/
theorem run_filter (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v72)
        = Cert.Filter.filter (m ((c.tc : Thread nD τ).loc main_arg0))
            (shift (m ((c.tc : Thread nD τ).loc main_arg1)) (m ((c.tc : Thread nD τ).loc main_arg0)))
            (shift (m ((c.tc : Thread nD τ).loc main_arg1)) (shift (m ((c.tc : Thread nD τ).loc main_arg1)) (m ((c.tc : Thread nD τ).loc main_arg0))))
            (shift (m ((c.tc : Thread nD τ).loc main_arg1)) (shift (m ((c.tc : Thread nD τ).loc main_arg1))
              (shift (m ((c.tc : Thread nD τ).loc main_arg1)) (m ((c.tc : Thread nD τ).loc main_arg0)))))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.ReferenceIdeal.defs (F := Ideal)) _ _).mono
    (fun _ h c => ⟨((h c).1.trans (Read.val_main_v72_eq m c)).trans (result_eq _ _ _ _), (h c).2⟩)
    (Cert.ReferenceIdeal.Value.run (F := Ideal) m ρ)

end Cert.ReferenceIdeal.RefValue

end
-- ==== Proof.lean ====
/-
  The five claims.

  The three frames: the word-level and the idealized blocked programs run to the end without a fault and leave their
  arguments unchanged (the same argument at both float instances), and so does the reference, a host program. The
  idealized blocked program is the blocked program's own text read at exact values: nothing was rewritten, so there is
  nothing to preserve. At exact values the blocked program's result is the filter Σₖ (Xₖ Wₖᵀ + bₖ) of the features and
  their three graph shifts, added tap by tap from an accumulator of zeros, and the reference's result is the same sum
  without the zeros; both programs compute a graph shift by the same operations, so from arguments that agree the two
  results are one array.
-/
import proofs.«166097_j37812892074317_1_alg».proof.Defs
import proofs.«166097_j37812892074317_1_alg».proof.Proof.Gen.Kernel
import proofs.«166097_j37812892074317_1_alg».proof.Proof.Gen.KernelIdeal
import proofs.«166097_j37812892074317_1_alg».proof.Proof.Gen.ReferenceIdeal
import proofs.«166097_j37812892074317_1_alg».proof.Proof.Gen.Pre_finite_inputs
import proofs.«166097_j37812892074317_1_alg».proof.Proof.FrameBits
import proofs.«166097_j37812892074317_1_alg».proof.Proof.FrameIdeal
import proofs.«166097_j37812892074317_1_alg».proof.Proof.KernelValue
import proofs.«166097_j37812892074317_1_alg».proof.Proof.RefValue
import Idealize.ShloMosaic.Adequacy
import Idealize.ShloMosaic.Init

noncomputable section

namespace Cert.Proof

open Idealize.ShloMosaic Idealize.SL.Sem

/-! ## The two programs' graph shifts are one function -/

/-- Both programs scatter with the same dimension numbers, -/
theorem scatter_eq : Cert.KernelIdeal.scatter_S50000x64_S800000x1_S800000x64_1_0_0_1
    = Cert.ReferenceIdeal.scatter_S50000x64_S800000x1_S800000x64_1_0_0_1 := rfl
/-- and gather with the same dimension numbers. -/
theorem gather_eq : Cert.KernelIdeal.gather_S50000x64_S800000x1_S800000x64_1_0_n_n_0_1_164
    = Cert.ReferenceIdeal.gather_S50000x64_S800000x1_S800000x64_1_0_n_n_0_1_164 := rfl

/-- One graph shift is the same composition of the same operations in both programs. -/
theorem shift_eq : Cert.KernelIdeal.Taps.shift = Cert.ReferenceIdeal.RefValue.shift := by
  funext e x
  unfold Cert.KernelIdeal.Taps.shift Cert.ReferenceIdeal.RefValue.shift
  rw [scatter_eq, gather_eq]

/-! ## The claims -/

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the filter of the features and their three
    shifts in their result arrays. -/
theorem algebraic : Cert.algebraic_KernelIdeal_ReferenceIdeal := by
  intro m ρ m' ρ' _ hagree
  refine ⟨fun c => Cert.KernelIdeal.KVal.result m c, Cert.KernelIdeal.KVal.run m ρ, ?_⟩
  refine (θ_run Cert.ReferenceIdeal.defs _ _).mono (fun _ h c => ⟨(h c).1.trans ?_, (h c).2⟩)
    (Cert.ReferenceIdeal.RefValue.run_filter m' ρ')
  obtain ⟨h0, h1, h2, h3⟩ := hagree c
  rw [h0, h1, h2, h3]
  unfold Cert.KernelIdeal.KVal.result
  rw [shift_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
